-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_0)) (v2 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_v10_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x13 : Shape := ⟨2, ![262144, 13]⟩
abbrev S262144x128 : Shape := ⟨2, ![262144, 128]⟩
abbrev S128x13 : Shape := ⟨2, ![128, 13]⟩
abbrev S128 : Shape := ⟨1, ![128]⟩
abbrev S128x128 : Shape := ⟨2, ![128, 128]⟩
abbrev S_ : Shape := ⟨0, ![]⟩

class Facts : Prop where
  bcast_S_S262144x13 : S_.BroadcastsInDim S262144x13 (![] : Fin 0 → Fin S262144x13.rank)
  reducesTo_S262144x13_S_d0_1 : S262144x13.ReducesTo [0, 1] S_
  h_S_ : 0 < S_.numel
  bcast_S_S262144x128 : S_.BroadcastsInDim S262144x128 (![] : Fin 0 → Fin S262144x128.rank)
  reducesTo_S262144x128_S_d0_1 : S262144x128.ReducesTo [0, 1] S_
  bcast_S_S128x13 : S_.BroadcastsInDim S128x13 (![] : Fin 0 → Fin S128x13.rank)
  reducesTo_S128x13_S_d0_1 : S128x13.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_arg18 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg14 : FVec F S128 .f32) (main_arg15 : FVec F S128x13 .f32) (main_arg16 : FVec F S128 .f32) (main_arg17 : FVec F S128x128 .f32) (main_arg18 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x13 .f32 := Host.absf main_arg15
  let main_cst_28 : FVec F S_ .f32 := constant S_ .f32 0x7F800000#32
  let main_v75 : FVec F S128x13 .f32 := broadcastInDim S128x13 ![] bcast_S_S128x13 main_cst_28
  let main_v76 : IVec S128x13 1 := cmpf .olt main_v74 main_v75
  let main_c_29 : IVec S_ 1 := constantI S_ 1 1#1
  let main_v77 : IVec S_ 1 := (fun x v => Host.reduce IntOp.andi x v reducesTo_S128x13_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S128x13 .f32) (main_arg12 : FVec F S128 .f32) (main_arg13 : FVec F S128x128 .f32) (main_arg14 : FVec F S128 .f32) (main_arg15 : FVec F S128x13 .f32) (main_arg16 : FVec F S128 .f32) (main_arg17 : FVec F S128x128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x13 .f32 := Host.absf main_arg11
  let main_cst_20 : FVec F S_ .f32 := constant S_ .f32 0x7F800000#32
  let main_v55 : FVec F S128x13 .f32 := broadcastInDim S128x13 ![] bcast_S_S128x13 main_cst_20
  let main_v56 : IVec S128x13 1 := cmpf .olt main_v54 main_v55
  let main_c_21 : IVec S_ 1 := constantI S_ 1 1#1
  let main_v57 : IVec S_ 1 := (fun x v => Host.reduce IntOp.andi x v reducesTo_S128x13_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_v63 main_v67

def fn_part2 {F : FTy → Type} [FloatOps F] (main_arg7 : FVec F S128x13 .f32) (main_arg8 : FVec F S128 .f32) (main_arg9 : FVec F S128x128 .f32) (main_arg10 : FVec F S128 .f32) (main_arg11 : FVec F S128x13 .f32) (main_arg12 : FVec F S128 .f32) (main_arg13 : FVec F S128x128 .f32) (main_arg14 : FVec F S128 .f32) (main_arg15 : FVec F S128x13 .f32) (main_arg16 : FVec F S128 .f32) (main_arg17 : FVec F S128x128 .f32) (main_arg18 : FVec F S128 .f32) (main_v33 : IVec S_ 1) : IVec S_ 1 :=
  let main_v34 : FVec F S128x13 .f32 := Host.absf main_arg7
  let main_cst_12 : FVec F S_ .f32 := constant S_ .f32 0x7F800000#32
  let main_v35 : FVec F S128x13 .f32 := broadcastInDim S128x13 ![] bcast_S_S128x13 main_cst_12
  let main_v36 : IVec S128x13 1 := cmpf .olt main_v34 main_v35
  let main_c_13 : IVec S_ 1 := constantI S_ 1 1#1
  let main_v37 : IVec S_ 1 := (fun x v => Host.reduce IntOp.andi x v reducesTo_S128x13_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_v48 main_v49 main_v50

def fn_part1 {F : FTy → Type} [FloatOps F] (main_arg4 : FVec F S128 .f32) (main_arg5 : FVec F S128x128 .f32) (main_arg6 : FVec F S128 .f32) (main_arg7 : FVec F S128x13 .f32) (main_arg8 : FVec F S128 .f32) (main_arg9 : FVec F S128x128 .f32) (main_arg10 : FVec F S128 .f32) (main_arg11 : FVec F S128x13 .f32) (main_arg12 : FVec F S128 .f32) (main_arg13 : FVec F S128x128 .f32) (main_arg14 : FVec F S128 .f32) (main_arg15 : FVec F S128x13 .f32) (main_arg16 : FVec F S128 .f32) (main_arg17 : FVec F S128x128 .f32) (main_arg18 : FVec F S128 .f32) (main_v13 : IVec S_ 1) (main_v16 : IVec S128x13 1) : IVec S_ 1 :=
  let main_c_5 : IVec S_ 1 := constantI S_ 1 1#1
  let main_v17 : IVec S_ 1 := (fun x v => Host.reduce IntOp.andi x v reducesTo_S128x13_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S262144x13 .f32) (main_arg1 : FVec F S262144x128 .f32) (main_arg2 : FVec F S262144x128 .f32) (main_arg3 : FVec F S128x13 .f32) (main_arg4 : FVec F S128 .f32) (main_arg5 : FVec F S128x128 .f32) (main_arg6 : FVec F S128 .f32) (main_arg7 : FVec F S128x13 .f32) (main_arg8 : FVec F S128 .f32) (main_arg9 : FVec F S128x128 .f32) (main_arg10 : FVec F S128 .f32) (main_arg11 : FVec F S128x13 .f32) (main_arg12 : FVec F S128 .f32) (main_arg13 : FVec F S128x128 .f32) (main_arg14 : FVec F S128 .f32) (main_arg15 : FVec F S128x13 .f32) (main_arg16 : FVec F S128 .f32) (main_arg17 : FVec F S128x128 .f32) (main_arg18 : FVec F S128 .f32) : IVec S_ 1 :=
  let main_v0 : FVec F S262144x13 .f32 := Host.absf main_arg0
  let main_cst : FVec F S_ .f32 := constant S_ .f32 0x7F800000#32
  let main_v1 : FVec F S262144x13 .f32 := broadcastInDim S262144x13 ![] bcast_S_S262144x13 main_cst
  let main_v2 : IVec S262144x13 1 := cmpf .olt main_v0 main_v1
  let main_c : IVec S_ 1 := constantI S_ 1 1#1
  let main_v3 : IVec S_ 1 := (fun x v => Host.reduce IntOp.andi x v reducesTo_S262144x13_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S128x13 .f32 := Host.absf main_arg3
  let main_cst_4 : FVec F S_ .f32 := constant S_ .f32 0x7F800000#32
  let main_v15 : FVec F S128x13 .f32 := broadcastInDim S128x13 ![] bcast_S_S128x13 main_cst_4
  let main_v16 : IVec S128x13 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S262144x13 : Shape := ⟨2, ![262144, 13]⟩
abbrev S262144x128 : Shape := ⟨2, ![262144, 128]⟩
abbrev S128x13 : Shape := ⟨2, ![128, 13]⟩
abbrev S128 : Shape := ⟨1, ![128]⟩
abbrev S128x128 : Shape := ⟨2, ![128, 128]⟩
abbrev S512x13 : Shape := ⟨2, ![512, 13]⟩
abbrev S512 : Shape := ⟨1, ![512]⟩
abbrev S512x128 : Shape := ⟨2, ![512, 128]⟩
abbrev S13x512 : Shape := ⟨2, ![13, 512]⟩
abbrev S128x512 : Shape := ⟨2, ![128, 512]⟩
abbrev S1x512 : Shape := ⟨2, ![1, 512]⟩
abbrev S4096x13 : Shape := ⟨2, ![4096, 13]⟩
abbrev S4096x128 : Shape := ⟨2, ![4096, 128]⟩
abbrev S4096x512 : Shape := ⟨2, ![4096, 512]⟩

abbrev nBuf : Space → Nat
  | .hbm => 31
  | .vmem => 13
  | .smem => 0
  | _ => 0

abbrev bufTy : (tb : Table) → Fin (tcTables nBuf tb) → BufTy
  | .hbm, ⟨0, _⟩ => ⟨S262144x13, .f32⟩
  | .hbm, ⟨1, _⟩ => ⟨S262144x128, .f32⟩
  | .hbm, ⟨2, _⟩ => ⟨S262144x128, .f32⟩
  | .hbm, ⟨3, _⟩ => ⟨S128x13, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x13, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x13, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x13, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S512x13, .f32⟩
  | .hbm, ⟨20, _⟩ => ⟨S512, .f32⟩
  | .hbm, ⟨21, _⟩ => ⟨S512x128, .f32⟩
  | .hbm, ⟨22, _⟩ => ⟨S512, .f32⟩
  | .hbm, ⟨23, _⟩ => ⟨S13x512, .f32⟩
  | .hbm, ⟨24, _⟩ => ⟨S13x512, .bf16⟩
  | .hbm, ⟨25, _⟩ => ⟨S128x512, .f32⟩
  | .hbm, ⟨26, _⟩ => ⟨S128x512, .bf16⟩
  | .hbm, ⟨27, _⟩ => ⟨S512, .f32⟩
  | .hbm, ⟨28, _⟩ => ⟨S1x512, .f32⟩
  | .hbm, ⟨29, _⟩ => ⟨S262144x128, .f32⟩
  | .hbm, ⟨30, _⟩ => ⟨S262144x128, .f32⟩
  | .local _ .vmem, ⟨0, _⟩ => ⟨S4096x13, .f32⟩
  | .local _ .vmem, ⟨1, _⟩ => ⟨S4096x13, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S13x512, .bf16⟩
  | .local _ .vmem, ⟨7, _⟩ => ⟨S128x512, .bf16⟩
  | .local _ .vmem, ⟨8, _⟩ => ⟨S1x512, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | _, _ => ⟨S262144x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S13x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S128x13_S128x13_S128x13_S128x13_S512x13_d0 : Shape.Concatenates [S128x13, S128x13, S128x13, S128x13] S512x13 0
  concatenates_S128_S128_S128_S128_S512_d0 : Shape.Concatenates [S128, S128, S128, S128] S512 0
  concatenates_S128x128_S128x128_S128x128_S128x128_S512x128_d0 : Shape.Concatenates [S128x128, S128x128, S128x128, S128x128] S512x128 0
  transposes_S512x13_S13x512_1_0 : S512x13.Transposes [1, 0] S13x512
  bitsLt_bf16_f32 : FTy.bits .bf16 < FTy.bits .f32
  transposes_S512x128_S128x512_1_0 : S512x128.Transposes [1, 0] S128x512
  shapeCasts_S512_S1x512 : S512.ShapeCasts S1x512
  inb_S4096x13_S4096x13_0_0 : ∀ a, (![0, 0] : Fin 2 → Nat) a + S4096x13.size a ≤ S4096x13.size a
  h_S4096x13 : 0 < S4096x13.numel
  inb_S4096x128_S4096x128_0_0 : ∀ a, (![0, 0] : Fin 2 → Nat) a + S4096x128.size a ≤ S4096x128.size a
  h_S4096x128 : 0 < S4096x128.numel
  inb_S13x512_S13x512_0_0 : ∀ a, (![0, 0] : Fin 2 → Nat) a + S13x512.size a ≤ S13x512.size a
  h_S13x512 : 0 < S13x512.numel
  shapeCasts_S13x512_S13x512 : S13x512.ShapeCasts S13x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  slices_S4096x512_o0_0_S4096x128 : S4096x512.Slices ![0, 0] S4096x128
  slices_S4096x512_o0_128_S4096x128 : S4096x512.Slices ![0, 128] S4096x128
  slices_S4096x512_o0_256_S4096x128 : S4096x512.Slices ![0, 256] S4096x128
  slices_S4096x512_o0_384_S4096x128 : S4096x512.Slices ![0, 384] S4096x128
  dot_S4096x13_S13x512_S4096x512_1_0_0_1_n_n_wf : DotDims.WF S4096x13 S13x512 S4096x512 [1] [0] [0] [1] [] []
  dot_S4096x128_S128x512_S4096x512_1_0_0_1_n_n_wf : DotDims.WF S4096x128 S128x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x13.size a ≤ S262144x13.size a
  hwx0_0 : ∀ i : grid0.Coords, EltTy.bits .f32 = 32 ∨ (Rect.block (s := S262144x13) S4096x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S262144x128.size a
  hwx0_2 : ∀ i : grid0.Coords, EltTy.bits .f32 = 32 ∨ (Rect.block (s := S262144x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S13x512.size a ≤ S13x512.size a
  hwx0_3 : ∀ i : grid0.Coords, EltTy.bits .bf16 = 32 ∨ (Rect.block (s := S13x512) S13x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .bf16 = 32 ∨ (Rect.block (s := S128x512) S128x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S262144x128.size a
  hwx0_6 : ∀ i : grid0.Coords, EltTy.bits .f32 = 32 ∨ (Rect.block (s := S262144x128) S4096x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S262144x128.size a
  hwx0_7 : ∀ i : grid0.Coords, EltTy.bits .f32 = 32 ∨ (Rect.block (s := S262144x128) S4096x128.size (cc0_transform_7 i) (hinb0_7 i)).WholeWords (EltTy.packing .f32)

variable [Facts₀]

def dot_S4096x13_S13x512_S4096x512_1_0_0_1_n_n : DotDims S4096x13 S13x512 S4096x512 where
  lhsContracting := [1]
  rhsContracting := [0]
  lhsNonContracting := [0]
  rhsNonContracting := [1]
  lhsBatch := []
  rhsBatch := []
  wf := dot_S4096x13_S13x512_S4096x512_1_0_0_1_n_n_wf
def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf

abbrev win0_0 : Pipeline.Window sig grid0 :=
  Pipeline.Window.ofSpec (Memref.whole main_arg0) S4096x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S13x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S4096x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x13 : Shape := ⟨2, ![262144, 13]⟩
abbrev S262144x128 : Shape := ⟨2, ![262144, 128]⟩
abbrev S128x13 : Shape := ⟨2, ![128, 13]⟩
abbrev S128 : Shape := ⟨1, ![128]⟩
abbrev S128x128 : Shape := ⟨2, ![128, 128]⟩
abbrev S512x13 : Shape := ⟨2, ![512, 13]⟩
abbrev S512 : Shape := ⟨1, ![512]⟩
abbrev S512x128 : Shape := ⟨2, ![512, 128]⟩
abbrev S13x512 : Shape := ⟨2, ![13, 512]⟩
abbrev S262144x512 : Shape := ⟨2, ![262144, 512]⟩
abbrev S1x512 : Shape := ⟨2, ![1, 512]⟩
abbrev S128x512 : Shape := ⟨2, ![128, 512]⟩
abbrev S_ : Shape := ⟨0, ![]⟩

abbrev nBuf : Space → Nat
  | .hbm => 82
  | .vmem => 0
  | .smem => 0
  | _ => 0

abbrev bufTy : (tb : Table) → Fin (tcTables nBuf tb) → BufTy
  | .hbm, ⟨0, _⟩ => ⟨S262144x13, .f32⟩
  | .hbm, ⟨1, _⟩ => ⟨S262144x128, .f32⟩
  | .hbm, ⟨2, _⟩ => ⟨S262144x128, .f32⟩
  | .hbm, ⟨3, _⟩ => ⟨S128x13, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x13, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x13, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x13, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S512x13, .f32⟩
  | .hbm, ⟨20, _⟩ => ⟨S512, .f32⟩
  | .hbm, ⟨21, _⟩ => ⟨S512x128, .f32⟩
  | .hbm, ⟨22, _⟩ => ⟨S512, .f32⟩
  | .hbm, ⟨23, _⟩ => ⟨S13x512, .f32⟩
  | .hbm, ⟨24, _⟩ => ⟨S262144x512, .f32⟩
  | .hbm, ⟨25, _⟩ => ⟨S1x512, .f32⟩
  | .hbm, ⟨26, _⟩ => ⟨S262144x512, .f32⟩
  | .hbm, ⟨27, _⟩ => ⟨S262144x512, .f32⟩
  | .hbm, ⟨28, _⟩ => ⟨S128x512, .f32⟩
  | .hbm, ⟨29, _⟩ => ⟨S262144x512, .f32⟩
  | .hbm, ⟨30, _⟩ => ⟨S262144x512, .f32⟩
  | .hbm, ⟨31, _⟩ => ⟨S1x512, .f32⟩
  | .hbm, ⟨32, _⟩ => ⟨S262144x512, .f32⟩
  | .hbm, ⟨33, _⟩ => ⟨S262144x512, .f32⟩
  | .hbm, ⟨34, _⟩ => ⟨S262144x128, .f32⟩
  | .hbm, ⟨35, _⟩ => ⟨S262144x128, .f32⟩
  | .hbm, ⟨36, _⟩ => ⟨S262144x128, .f32⟩
  | .hbm, ⟨37, _⟩ => ⟨S262144x128, .f32⟩
  | .hbm, ⟨38, _⟩ => ⟨S262144x128, .f32⟩
  | .hbm, ⟨39, _⟩ => ⟨S262144x128, .f32⟩
  | .hbm, ⟨40, _⟩ => ⟨S_, .f32⟩
  | .hbm, ⟨41, _⟩ => ⟨S262144x128, .f32⟩
  | .hbm, ⟨42, _⟩ => ⟨S262144x128, .f32⟩
  | .hbm, ⟨43, _⟩ => ⟨S_, .f32⟩
  | .hbm, ⟨44, _⟩ => ⟨S262144x128, .f32⟩
  | .hbm, ⟨45, _⟩ => ⟨S262144x128, .f32⟩
  | .hbm, ⟨46, _⟩ => ⟨S262144x128, .f32⟩
  | .hbm, ⟨47, _⟩ => ⟨S262144x128, .f32⟩
  | .hbm, ⟨48, _⟩ => ⟨S_, .f32⟩
  | .hbm, ⟨49, _⟩ => ⟨S262144x128, .f32⟩
  | .hbm, ⟨50, _⟩ => ⟨S262144x128, .f32⟩
  | .hbm, ⟨51, _⟩ => ⟨S_, .f32⟩
  | .hbm, ⟨52, _⟩ => ⟨S262144x128, .f32⟩
  | .hbm, ⟨53, _⟩ => ⟨S262144x128, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S262144x128, .f32⟩
  | .hbm, ⟨58, _⟩ => ⟨S262144x128, .f32⟩
  | .hbm, ⟨59, _⟩ => ⟨S_, .f32⟩
  | .hbm, ⟨60, _⟩ => ⟨S262144x128, .f32⟩
  | .hbm, ⟨61, _⟩ => ⟨S262144x128, .f32⟩
  | .hbm, ⟨62, _⟩ => ⟨S262144x128, .f32⟩
  | .hbm, ⟨63, _⟩ => ⟨S262144x128, .f32⟩
  | .hbm, ⟨64, _⟩ => ⟨S_, .f32⟩
  | .hbm, ⟨65, _⟩ => ⟨S262144x128, .f32⟩
  | .hbm, ⟨66, _⟩ => ⟨S262144x128, .f32⟩
  | .hbm, ⟨67, _⟩ => ⟨S_, .f32⟩
  | .hbm, ⟨68, _⟩ => ⟨S262144x128, .f32⟩
  | .hbm, ⟨69, _⟩ => ⟨S262144x128, .f32⟩
  | .hbm, ⟨70, _⟩ => ⟨S262144x128, .f32⟩
  | .hbm, ⟨71, _⟩ => ⟨S262144x128, .f32⟩
  | .hbm, ⟨72, _⟩ => ⟨S262144x128, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S262144x128, .f32⟩
  | .hbm, ⟨77, _⟩ => ⟨S262144x128, .f32⟩
  | .hbm, ⟨78, _⟩ => ⟨S_, .f32⟩
  | .hbm, ⟨79, _⟩ => ⟨S262144x128, .f32⟩
  | .hbm, ⟨80, _⟩ => ⟨S262144x128, .f32⟩
  | .hbm, ⟨81, _⟩ => ⟨S262144x128, .f32⟩
  | _, _ => ⟨S262144x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_cst_4 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_5 : Ref sig .tc := ⟨.hbm, 64, rfl⟩
abbrev main_v34 : Ref sig .tc := ⟨.hbm, 65, rfl⟩
abbrev main_v35 : Ref sig .tc := ⟨.hbm, 66, rfl⟩
abbrev main_cst_6 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_7 : Ref sig .tc := ⟨.hbm, 73, rfl⟩
abbrev main_cst_8 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_v41 : Ref sig .tc := ⟨.hbm, 80, rfl⟩
abbrev main_v42 : Ref sig .tc := ⟨.hbm, 81, rfl⟩

abbrev nD : Nat := 1
abbrev τ : Topo := Topo.v7x

variable {F : FTy → Type} [FloatOps F]

class Facts₀ : Prop where
  concatenates_S128x13_S128x13_S128x13_S128x13_S512x13_d0 : Shape.Concatenates [S128x13, S128x13, S128x13, S128x13] S512x13 0
  concatenates_S128_S128_S128_S128_S512_d0 : Shape.Concatenates [S128, S128, S128, S128] S512 0
  concatenates_S128x128_S128x128_S128x128_S128x128_S512x128_d0 : Shape.Concatenates [S128x128, S128x128, S128x128, S128x128] S512x128 0
  transposes_S512x13_S13x512_1_0 : S512x13.Transposes [1, 0] S13x512
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  transposes_S512x128_S128x512_1_0 : S512x128.Transposes [1, 0] S128x512
  slices_S262144x512_S262144x128_0_0 : S262144x512.Slices ![0, 0] S262144x128
  slices_S262144x512_S262144x128_0_128 : S262144x512.Slices ![0, 128] S262144x128
  slices_S262144x512_S262144x128_0_256 : S262144x512.Slices ![0, 256] S262144x128
  slices_S262144x512_S262144x128_0_384 : S262144x512.Slices ![0, 384] S262144x128
  bcast_S_S262144x128 : S_.BroadcastsInDim S262144x128 (![] : Fin 0 → Fin S262144x128.rank)
  dot_S262144x13_S13x512_S262144x512_1_0_0_1_n_n_wf : DotDims.WF S262144x13 S13x512 S262144x512 [1] [0] [0] [1] [] []
  dot_S262144x128_S128x512_S262144x512_1_0_0_1_n_n_wf : DotDims.WF S262144x128 S128x512 S262144x512 [1] [0] [0] [1] [] []

variable [Facts₀]

def dot_S262144x13_S13x512_S262144x512_1_0_0_1_n_n : DotDims S262144x13 S13x512 S262144x512 where
  lhsContracting := [1]
  rhsContracting := [0]
  lhsNonContracting := [0]
  rhsNonContracting := [1]
  lhsBatch := []
  rhsBatch := []
  wf := dot_S262144x13_S13x512_S262144x512_1_0_0_1_n_n_wf
def dot_S262144x128_S128x512_S262144x512_1_0_0_1_n_n : DotDims S262144x128 S128x512 S262144x512 where
  lhsContracting := [1]
  rhsContracting := [0]
  lhsNonContracting := [0]
  rhsNonContracting := [1]
  lhsBatch := []
  rhsBatch := []
  wf := dot_S262144x128_S128x512_S262144x512_1_0_0_1_n_n_wf

class Facts : Prop extends Facts₀ where

variable [Facts]
-- ==== Proof.K.Host.lean ====
/-
  The host side of the frame of the kernel as printed (floats read as words).  @main is ten host operations — four concatenations of the gate
  weights and biases, two transpositions, two changes of float format, one sum of the two bias vectors and one
  reshape — followed by the one pipelined region.  `V` names what every buffer holds when the region is entered;
  none of the nineteen argument arrays is written by a host operation, so each is found as launched; a window's
  block at a grid point is read off `V`; and a run of the region to the pipeline's frame post gives the frame
  claim's post: the three staged argument arrays (the inputs x, h, c) through their windows, the sixteen others
  as buffers no window stages.
-/
import proofs.«145202_j12979391168907_2_alg».proof.Proof.Gen.Kernel.Launch
import proofs.«145202_j12979391168907_2_alg».proof.Proof.Gen.Kernel.Skeleton
import proofs.«145202_j12979391168907_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## @main up to the region -/

/-- Core `c`'s buffers when the region is entered: the ten host operations folded over the launch memory. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Each host operation writes one buffer, and that buffer is none of the argument arrays: the side condition of
    "this buffer is as launched", decided reference by reference. -/
local macro "not_written" : tactic => `(tactic| (
  simp only [hostOps0, List.flatten_cons, List.flatten_nil, List.append_nil, List.cons_append,
    List.nil_append, List.Forall, StableHlo.nary_writes, StableHlo.nullary_writes, StableHlo.unary_writes,
    StableHlo.binary_writes, StableHlo.reshape_writes, Finset.mem_singleton]
  repeat' apply And.intro
  all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by not_written))
theorem V_main_arg1 (c : Dev nD) : V m c main_arg1 = m ((c : Thread nD τ).loc main_arg1) :=
  StableHlo.after_of_forall_not_mem (b := Proc.devRef .tc main_arg1) _ _ (List.forall_iff_forall_mem.mp (by not_written))
theorem V_main_arg2 (c : Dev nD) : V m c main_arg2 = m ((c : Thread nD τ).loc main_arg2) :=
  StableHlo.after_of_forall_not_mem (b := Proc.devRef .tc main_arg2) _ _ (List.forall_iff_forall_mem.mp (by not_written))
theorem V_main_arg3 (c : Dev nD) : V m c main_arg3 = m ((c : Thread nD τ).loc main_arg3) :=
  StableHlo.after_of_forall_not_mem (b := Proc.devRef .tc main_arg3) _ _ (List.forall_iff_forall_mem.mp (by not_written))
theorem V_main_arg4 (c : Dev nD) : V m c main_arg4 = m ((c : Thread nD τ).loc main_arg4) :=
  StableHlo.after_of_forall_not_mem (b := Proc.devRef .tc main_arg4) _ _ (List.forall_iff_forall_mem.mp (by not_written))
theorem V_main_arg5 (c : Dev nD) : V m c main_arg5 = m ((c : Thread nD τ).loc main_arg5) :=
  StableHlo.after_of_forall_not_mem (b := Proc.devRef .tc main_arg5) _ _ (List.forall_iff_forall_mem.mp (by not_written))
theorem V_main_arg6 (c : Dev nD) : V m c main_arg6 = m ((c : Thread nD τ).loc main_arg6) :=
  StableHlo.after_of_forall_not_mem (b := Proc.devRef .tc main_arg6) _ _ (List.forall_iff_forall_mem.mp (by not_written))
theorem V_main_arg7 (c : Dev nD) : V m c main_arg7 = m ((c : Thread nD τ).loc main_arg7) :=
  StableHlo.after_of_forall_not_mem (b := Proc.devRef .tc main_arg7) _ _ (List.forall_iff_forall_mem.mp (by not_written))
theorem V_main_arg8 (c : Dev nD) : V m c main_arg8 = m ((c : Thread nD τ).loc main_arg8) :=
  StableHlo.after_of_forall_not_mem (b := Proc.devRef .tc main_arg8) _ _ (List.forall_iff_forall_mem.mp (by not_written))
theorem V_main_arg9 (c : Dev nD) : V m c main_arg9 = m ((c : Thread nD τ).loc main_arg9) :=
  StableHlo.after_of_forall_not_mem (b := Proc.devRef .tc main_arg9) _ _ (List.forall_iff_forall_mem.mp (by not_written))
theorem V_main_arg10 (c : Dev nD) : V m c main_arg10 = m ((c : Thread nD τ).loc main_arg10) :=
  StableHlo.after_of_forall_not_mem (b := Proc.devRef .tc main_arg10) _ _ (List.forall_iff_forall_mem.mp (by not_written))
theorem V_main_arg11 (c : Dev nD) : V m c main_arg11 = m ((c : Thread nD τ).loc main_arg11) :=
  StableHlo.after_of_forall_not_mem (b := Proc.devRef .tc main_arg11) _ _ (List.forall_iff_forall_mem.mp (by not_written))
theorem V_main_arg12 (c : Dev nD) : V m c main_arg12 = m ((c : Thread nD τ).loc main_arg12) :=
  StableHlo.after_of_forall_not_mem (b := Proc.devRef .tc main_arg12) _ _ (List.forall_iff_forall_mem.mp (by not_written))
theorem V_main_arg13 (c : Dev nD) : V m c main_arg13 = m ((c : Thread nD τ).loc main_arg13) :=
  StableHlo.after_of_forall_not_mem (b := Proc.devRef .tc main_arg13) _ _ (List.forall_iff_forall_mem.mp (by not_written))
theorem V_main_arg14 (c : Dev nD) : V m c main_arg14 = m ((c : Thread nD τ).loc main_arg14) :=
  StableHlo.after_of_forall_not_mem (b := Proc.devRef .tc main_arg14) _ _ (List.forall_iff_forall_mem.mp (by not_written))
theorem V_main_arg15 (c : Dev nD) : V m c main_arg15 = m ((c : Thread nD τ).loc main_arg15) :=
  StableHlo.after_of_forall_not_mem (b := Proc.devRef .tc main_arg15) _ _ (List.forall_iff_forall_mem.mp (by not_written))
theorem V_main_arg16 (c : Dev nD) : V m c main_arg16 = m ((c : Thread nD τ).loc main_arg16) :=
  StableHlo.after_of_forall_not_mem (b := Proc.devRef .tc main_arg16) _ _ (List.forall_iff_forall_mem.mp (by not_written))
theorem V_main_arg17 (c : Dev nD) : V m c main_arg17 = m ((c : Thread nD τ).loc main_arg17) :=
  StableHlo.after_of_forall_not_mem (b := Proc.devRef .tc main_arg17) _ _ (List.forall_iff_forall_mem.mp (by not_written))
theorem V_main_arg18 (c : Dev nD) : V m c main_arg18 = m ((c : Thread nD τ).loc main_arg18) :=
  StableHlo.after_of_forall_not_mem (b := Proc.devRef .tc main_arg18) _ _ (List.forall_iff_forall_mem.mp (by not_written))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point — fetched there, or fetched at the
    first point and left in place (the three resident operands: both weight matrices and the bias row) — for any
    proof data whose array is `V`'s and whose body leaves the block as it found it. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the pipeline's frame post -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

end Cert.Kernel.Frame

end
-- ==== Proof.K.Body.lean ====
/-
  One grid point of the kernel as printed (floats read as words), as a triple.  The body reads its six input blocks whole — a tile of 4096
  rows of x, of h and of c, the two resident weight matrices and the bias row —, computes the four gate
  pre-activations in one 4096×512 value, and stores the new hidden tile and the new cell tile, each over the whole of
  its output buffer.  So after the body each output buffer holds the canonical reading of its one covering store:
  `outH` (the payload of the hidden state) and `outC` (the payload of the cell state) of the six input blocks.
  The body also loads each output buffer before storing into it; what it reads there is never used.
-/
import proofs.«145202_j12979391168907_2_alg».proof.Proof.Gen.Kernel.Launch
import proofs.«145202_j12979391168907_2_alg».proof.Proof.Gen.Kernel.Skeleton
import proofs.«145202_j12979391168907_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: every load and store is of a whole buffer -/

abbrev rX : Rect S4096x13 := Rect.unit (s := S4096x13) ![0, 0] S4096x13.size inb_S4096x13_S4096x13_0_0
abbrev rS : Rect S4096x128 := Rect.unit (s := S4096x128) ![0, 0] S4096x128.size inb_S4096x128_S4096x128_0_0
abbrev rWx : Rect S13x512 := Rect.unit (s := S13x512) ![0, 0] S13x512.size inb_S13x512_S13x512_0_0
abbrev rWh : Rect S128x512 := Rect.unit (s := S128x512) ![0, 0] S128x512.size inb_S128x512_S128x512_0_0
abbrev rB : Rect S1x512 := Rect.unit (s := S1x512) ![0, 0] S1x512.size inb_S1x512_S1x512_0_0

/-! ## What the body leaves in each output buffer -/

/-- The hidden-state buffer after the body: its one store, of the payload o · clip(c'), read canonically. -/
def outH (x0 : Vec F S4096x13 .f32) (x1 : Vec F S4096x128 .f32) (x2 : Vec F S4096x128 .f32) (x3 : Vec F S13x512 .bf16) (x4 : Vec F S128x512 .bf16) (x5 : Vec F S1x512 .f32) : Vec F S4096x128 .f32 :=
  View.canon [⟨rS, k0_pay3 (View.ld x0 rX) (View.ld x1 rS) (View.ld x3 rWx) (View.ld x4 rWh) (View.ld x5 rB) (View.ld x2 rS)⟩]

/-- The cell-state buffer after the body: its one store, of the payload c' = f · c + i · g, read canonically. -/
def outC (x0 : Vec F S4096x13 .f32) (x1 : Vec F S4096x128 .f32) (x2 : Vec F S4096x128 .f32) (x3 : Vec F S13x512 .bf16) (x4 : Vec F S128x512 .bf16) (x5 : Vec F S1x512 .f32) : Vec F S4096x128 .f32 :=
  View.canon [⟨rS, k0_pay2 (View.ld x0 rX) (View.ld x1 rS) (View.ld x3 rWx) (View.ld x4 rWh) (View.ld x5 rB) (View.ld x2 rS)⟩]

/-- One whole-buffer store covers the buffer. -/
theorem coverS (p0 : Vec F S4096x128 .f32) (y : S4096x128.Idx) :
    ∃ pc ∈ ([⟨rS, p0⟩] : List (View.Piece (Elt F) S4096x128 .f32)), y ∈ pc.1.set :=
  View.cover_of_tiled [⟨rS, p0⟩] S4096x128.size (by rfl) y

/-! ## The body's triple -/

set_option maxHeartbeats 1000000 in
/-- On whole staging buffers — the six inputs at contents `x0 … x5`, the two outputs at anything — the body runs to a
    continuation that holds the inputs as they were, the hidden-state buffer at `outH` and the cell-state buffer at
    `outC` of the inputs. -/
theorem sound_kernel (c : Dev nD) (E : Set ℕ) (i : grid0.Coords) (arg1 : Memref sig .tc .vmem S4096x13 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S13x512 .bf16) (harg4 : arg4.IsWhole) (arg5 : Memref sig .tc .vmem S128x512 .bf16) (harg5 : arg5.IsWhole) (arg6 : Memref sig .tc .vmem S1x512 .f32) (harg6 : arg6.IsWhole) (arg7 : Memref sig .tc .vmem S4096x128 .f32) (harg7 : arg7.IsWhole) (arg8 : Memref sig .tc .vmem S4096x128 .f32) (harg8 : arg8.IsWhole)
    (x0 : Vec F S4096x13 .f32) (x1 : Vec F S4096x128 .f32) (x2 : Vec F S4096x128 .f32) (x3 : Vec F S13x512 .bf16) (x4 : Vec F S128x512 .bf16) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (coverS _)
  iexists _; isplitr
  swap; · iexact H7
  ipureintro
  try dsimp only
  exact View.read_writes_eq_canon _ _ _ (coverS _)

end Cert.Kernel.Frame

end
-- ==== Proof.K.Run.lean ====
/-
  The pipeline's proof data and the run of @main, for the kernel as printed.  After the body at grid point `t` each of the six input
  buffers still holds its block and the two output buffers hold `outH` and `outC` of the six input blocks at `t`; the
  invariant is the class's (nothing of the kernel's own: no scratch, no semaphore), nothing is owed, every share is
  full.  The body obligation at a point is the body's triple at the blocks; the launch theorem then runs @main — the host
  operations, then every grid point — to the frame post, which has the frame claim as a consequence.
-/
import proofs.«145202_j12979391168907_2_alg».proof.Proof.K.Host
import proofs.«145202_j12979391168907_2_alg».proof.Proof.K.Body

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH (iblk m c 0 t) (iblk m c 1 t) (iblk m c 2 t) (iblk m c 3 t) (iblk m c 4 t) (iblk m c 5 t) := by dsimp only [dats]
theorem after7 (c : Dev nD) (t : Fin cfg0.N) : (dats m 0 c).after 7 t = outC (iblk m c 0 t) (iblk m c 1 t) (iblk m c 2 t) (iblk m c 3 t) (iblk m c 4 t) (iblk m c 5 t) := by dsimp only [dats]

/-! Each input's current staging buffer holds its block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and
    what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Frame

end
-- ==== Proof.KI.Host.lean ====
/-
  The host side of the idealized kernel's frame.  @main is ten host operations — four concatenations of the gate
  weights and biases, two transpositions, two changes of float format, one sum of the two bias vectors and one
  reshape — followed by the one pipelined region.  `V` names what every buffer holds when the region is entered;
  none of the nineteen argument arrays is written by a host operation, so each is found as launched; a window's
  block at a grid point is read off `V`; and a run of the region to the pipeline's frame post gives the frame
  claim's post: the three staged argument arrays (the inputs x, h, c) through their windows, the sixteen others
  as buffers no window stages.
-/
import proofs.«145202_j12979391168907_2_alg».proof.Proof.Gen.KernelIdeal.Launch
import proofs.«145202_j12979391168907_2_alg».proof.Proof.Gen.KernelIdeal.Skeleton
import proofs.«145202_j12979391168907_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## @main up to the region -/

/-- Core `c`'s buffers when the region is entered: the ten host operations folded over the launch memory. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Each host operation writes one buffer, and that buffer is none of the argument arrays: the side condition of
    "this buffer is as launched", decided reference by reference. -/
local macro "not_written" : tactic => `(tactic| (
  simp only [hostOps0, List.flatten_cons, List.flatten_nil, List.append_nil, List.cons_append,
    List.nil_append, List.Forall, StableHlo.nary_writes, StableHlo.nullary_writes, StableHlo.unary_writes,
    StableHlo.binary_writes, StableHlo.reshape_writes, Finset.mem_singleton]
  repeat' apply And.intro
  all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by not_written))
theorem V_main_arg1 (c : Dev nD) : V m c main_arg1 = m ((c : Thread nD τ).loc main_arg1) :=
  StableHlo.after_of_forall_not_mem (b := Proc.devRef .tc main_arg1) _ _ (List.forall_iff_forall_mem.mp (by not_written))
theorem V_main_arg2 (c : Dev nD) : V m c main_arg2 = m ((c : Thread nD τ).loc main_arg2) :=
  StableHlo.after_of_forall_not_mem (b := Proc.devRef .tc main_arg2) _ _ (List.forall_iff_forall_mem.mp (by not_written))
theorem V_main_arg3 (c : Dev nD) : V m c main_arg3 = m ((c : Thread nD τ).loc main_arg3) :=
  StableHlo.after_of_forall_not_mem (b := Proc.devRef .tc main_arg3) _ _ (List.forall_iff_forall_mem.mp (by not_written))
theorem V_main_arg4 (c : Dev nD) : V m c main_arg4 = m ((c : Thread nD τ).loc main_arg4) :=
  StableHlo.after_of_forall_not_mem (b := Proc.devRef .tc main_arg4) _ _ (List.forall_iff_forall_mem.mp (by not_written))
theorem V_main_arg5 (c : Dev nD) : V m c main_arg5 = m ((c : Thread nD τ).loc main_arg5) :=
  StableHlo.after_of_forall_not_mem (b := Proc.devRef .tc main_arg5) _ _ (List.forall_iff_forall_mem.mp (by not_written))
theorem V_main_arg6 (c : Dev nD) : V m c main_arg6 = m ((c : Thread nD τ).loc main_arg6) :=
  StableHlo.after_of_forall_not_mem (b := Proc.devRef .tc main_arg6) _ _ (List.forall_iff_forall_mem.mp (by not_written))
theorem V_main_arg7 (c : Dev nD) : V m c main_arg7 = m ((c : Thread nD τ).loc main_arg7) :=
  StableHlo.after_of_forall_not_mem (b := Proc.devRef .tc main_arg7) _ _ (List.forall_iff_forall_mem.mp (by not_written))
theorem V_main_arg8 (c : Dev nD) : V m c main_arg8 = m ((c : Thread nD τ).loc main_arg8) :=
  StableHlo.after_of_forall_not_mem (b := Proc.devRef .tc main_arg8) _ _ (List.forall_iff_forall_mem.mp (by not_written))
theorem V_main_arg9 (c : Dev nD) : V m c main_arg9 = m ((c : Thread nD τ).loc main_arg9) :=
  StableHlo.after_of_forall_not_mem (b := Proc.devRef .tc main_arg9) _ _ (List.forall_iff_forall_mem.mp (by not_written))
theorem V_main_arg10 (c : Dev nD) : V m c main_arg10 = m ((c : Thread nD τ).loc main_arg10) :=
  StableHlo.after_of_forall_not_mem (b := Proc.devRef .tc main_arg10) _ _ (List.forall_iff_forall_mem.mp (by not_written))
theorem V_main_arg11 (c : Dev nD) : V m c main_arg11 = m ((c : Thread nD τ).loc main_arg11) :=
  StableHlo.after_of_forall_not_mem (b := Proc.devRef .tc main_arg11) _ _ (List.forall_iff_forall_mem.mp (by not_written))
theorem V_main_arg12 (c : Dev nD) : V m c main_arg12 = m ((c : Thread nD τ).loc main_arg12) :=
  StableHlo.after_of_forall_not_mem (b := Proc.devRef .tc main_arg12) _ _ (List.forall_iff_forall_mem.mp (by not_written))
theorem V_main_arg13 (c : Dev nD) : V m c main_arg13 = m ((c : Thread nD τ).loc main_arg13) :=
  StableHlo.after_of_forall_not_mem (b := Proc.devRef .tc main_arg13) _ _ (List.forall_iff_forall_mem.mp (by not_written))
theorem V_main_arg14 (c : Dev nD) : V m c main_arg14 = m ((c : Thread nD τ).loc main_arg14) :=
  StableHlo.after_of_forall_not_mem (b := Proc.devRef .tc main_arg14) _ _ (List.forall_iff_forall_mem.mp (by not_written))
theorem V_main_arg15 (c : Dev nD) : V m c main_arg15 = m ((c : Thread nD τ).loc main_arg15) :=
  StableHlo.after_of_forall_not_mem (b := Proc.devRef .tc main_arg15) _ _ (List.forall_iff_forall_mem.mp (by not_written))
theorem V_main_arg16 (c : Dev nD) : V m c main_arg16 = m ((c : Thread nD τ).loc main_arg16) :=
  StableHlo.after_of_forall_not_mem (b := Proc.devRef .tc main_arg16) _ _ (List.forall_iff_forall_mem.mp (by not_written))
theorem V_main_arg17 (c : Dev nD) : V m c main_arg17 = m ((c : Thread nD τ).loc main_arg17) :=
  StableHlo.after_of_forall_not_mem (b := Proc.devRef .tc main_arg17) _ _ (List.forall_iff_forall_mem.mp (by not_written))
theorem V_main_arg18 (c : Dev nD) : V m c main_arg18 = m ((c : Thread nD τ).loc main_arg18) :=
  StableHlo.after_of_forall_not_mem (b := Proc.devRef .tc main_arg18) _ _ (List.forall_iff_forall_mem.mp (by not_written))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point — fetched there, or fetched at the
    first point and left in place (the three resident operands: both weight matrices and the bias row) — for any
    proof data whose array is `V`'s and whose body leaves the block as it found it. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the pipeline's frame post -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

end Cert.KernelIdeal.Frame

end
-- ==== Proof.KI.Body.lean ====
/-
  One grid point of the idealized kernel, as a triple.  The body reads its six input blocks whole — a tile of 4096
  rows of x, of h and of c, the two resident weight matrices and the bias row —, computes the four gate
  pre-activations in one 4096×512 value, and stores the new hidden tile and the new cell tile, each over the whole of
  its output buffer.  So after the body each output buffer holds the canonical reading of its one covering store:
  `outH` (the payload of the hidden state) and `outC` (the payload of the cell state) of the six input blocks.
  The body also loads each output buffer before storing into it; what it reads there is never used.
-/
import proofs.«145202_j12979391168907_2_alg».proof.Proof.Gen.KernelIdeal.Launch
import proofs.«145202_j12979391168907_2_alg».proof.Proof.Gen.KernelIdeal.Skeleton
import proofs.«145202_j12979391168907_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: every load and store is of a whole buffer -/

abbrev rX : Rect S4096x13 := Rect.unit (s := S4096x13) ![0, 0] S4096x13.size inb_S4096x13_S4096x13_0_0
abbrev rS : Rect S4096x128 := Rect.unit (s := S4096x128) ![0, 0] S4096x128.size inb_S4096x128_S4096x128_0_0
abbrev rWx : Rect S13x512 := Rect.unit (s := S13x512) ![0, 0] S13x512.size inb_S13x512_S13x512_0_0
abbrev rWh : Rect S128x512 := Rect.unit (s := S128x512) ![0, 0] S128x512.size inb_S128x512_S128x512_0_0
abbrev rB : Rect S1x512 := Rect.unit (s := S1x512) ![0, 0] S1x512.size inb_S1x512_S1x512_0_0

/-! ## What the body leaves in each output buffer -/

/-- The hidden-state buffer after the body: its one store, of the payload o · clip(c'), read canonically. -/
def outH (x0 : Vec F S4096x13 .f32) (x1 : Vec F S4096x128 .f32) (x2 : Vec F S4096x128 .f32) (x3 : Vec F S13x512 .bf16) (x4 : Vec F S128x512 .bf16) (x5 : Vec F S1x512 .f32) : Vec F S4096x128 .f32 :=
  View.canon [⟨rS, k0_pay3 (View.ld x0 rX) (View.ld x1 rS) (View.ld x3 rWx) (View.ld x4 rWh) (View.ld x5 rB) (View.ld x2 rS)⟩]

/-- The cell-state buffer after the body: its one store, of the payload c' = f · c + i · g, read canonically. -/
def outC (x0 : Vec F S4096x13 .f32) (x1 : Vec F S4096x128 .f32) (x2 : Vec F S4096x128 .f32) (x3 : Vec F S13x512 .bf16) (x4 : Vec F S128x512 .bf16) (x5 : Vec F S1x512 .f32) : Vec F S4096x128 .f32 :=
  View.canon [⟨rS, k0_pay2 (View.ld x0 rX) (View.ld x1 rS) (View.ld x3 rWx) (View.ld x4 rWh) (View.ld x5 rB) (View.ld x2 rS)⟩]

/-- One whole-buffer store covers the buffer. -/
theorem coverS (p0 : Vec F S4096x128 .f32) (y : S4096x128.Idx) :
    ∃ pc ∈ ([⟨rS, p0⟩] : List (View.Piece (Elt F) S4096x128 .f32)), y ∈ pc.1.set :=
  View.cover_of_tiled [⟨rS, p0⟩] S4096x128.size (by rfl) y

/-! ## The body's triple -/

set_option maxHeartbeats 1000000 in
/-- On whole staging buffers — the six inputs at contents `x0 … x5`, the two outputs at anything — the body runs to a
    continuation that holds the inputs as they were, the hidden-state buffer at `outH` and the cell-state buffer at
    `outC` of the inputs. -/
theorem sound_kernel (c : Dev nD) (E : Set ℕ) (i : grid0.Coords) (arg1 : Memref sig .tc .vmem S4096x13 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S13x512 .bf16) (harg4 : arg4.IsWhole) (arg5 : Memref sig .tc .vmem S128x512 .bf16) (harg5 : arg5.IsWhole) (arg6 : Memref sig .tc .vmem S1x512 .f32) (harg6 : arg6.IsWhole) (arg7 : Memref sig .tc .vmem S4096x128 .f32) (harg7 : arg7.IsWhole) (arg8 : Memref sig .tc .vmem S4096x128 .f32) (harg8 : arg8.IsWhole)
    (x0 : Vec F S4096x13 .f32) (x1 : Vec F S4096x128 .f32) (x2 : Vec F S4096x128 .f32) (x3 : Vec F S13x512 .bf16) (x4 : Vec F S128x512 .bf16) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (coverS _)
  iexists _; isplitr
  swap; · iexact H7
  ipureintro
  try dsimp only
  exact View.read_writes_eq_canon _ _ _ (coverS _)

end Cert.KernelIdeal.Frame

end
-- ==== Proof.KI.Run.lean ====
/-
  The pipeline's proof data and the run of @main, for the idealized kernel.  After the body at grid point `t` each of the six input
  buffers still holds its block and the two output buffers hold `outH` and `outC` of the six input blocks at `t`; the
  invariant is the class's (nothing of the kernel's own: no scratch, no semaphore), nothing is owed, every share is
  full.  The body obligation at a point is the body's triple at the blocks; the launch theorem then runs @main — the host
  operations, then every grid point — to the frame post, which has the frame claim as a consequence.
-/
import proofs.«145202_j12979391168907_2_alg».proof.Proof.KI.Host
import proofs.«145202_j12979391168907_2_alg».proof.Proof.KI.Body

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH (iblk m c 0 t) (iblk m c 1 t) (iblk m c 2 t) (iblk m c 3 t) (iblk m c 4 t) (iblk m c 5 t) := by dsimp only [dats]
theorem after7 (c : Dev nD) (t : Fin cfg0.N) : (dats m 0 c).after 7 t = outC (iblk m c 0 t) (iblk m c 1 t) (iblk m c 2 t) (iblk m c 3 t) (iblk m c 4 t) (iblk m c 5 t) := by dsimp only [dats]

/-! Each input's current staging buffer holds its block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and
    what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Frame

end
-- ==== Proof.KI.HostVal.lean ====
/-
  What the region finds in the three arrays the host operations prepare, as terms of the argument arrays: the input
  weights (the four gates' matrices stacked, transposed, narrowed to the short float format), the hidden weights
  (likewise), and the bias row (the two stacked bias vectors added and laid out as one row).
-/
import proofs.«145202_j12979391168907_2_alg».proof.Proof.KI.Host
import Idealize.ShloMosaic.Lib.StableHlo.Run

noncomputable section

namespace Cert.KernelIdeal.Frame

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The four gates' input weights stacked along the rows, then transposed: a 13 × 512 matrix. -/
def WxT (c : Dev nD) : FVec F S13x512 .f32 :=
  transpose S13x512 [1, 0] (concatenate S512x13 0 [⟨S128x13, m ((c : Thread nD τ).loc main_arg3)⟩, ⟨S128x13, m ((c : Thread nD τ).loc main_arg7)⟩, ⟨S128x13, m ((c : Thread nD τ).loc main_arg11)⟩, ⟨S128x13, m ((c : Thread nD τ).loc main_arg15)⟩] concatenates_S128x13_S128x13_S128x13_S128x13_S512x13_d0) transposes_S512x13_S13x512_1_0

/-- The four gates' hidden weights stacked along the rows, then transposed: a 128 × 512 matrix. -/
def WhT (c : Dev nD) : FVec F S128x512 .f32 :=
  transpose S128x512 [1, 0] (concatenate S512x128 0 [⟨S128x128, m ((c : Thread nD τ).loc main_arg5)⟩, ⟨S128x128, m ((c : Thread nD τ).loc main_arg9)⟩, ⟨S128x128, m ((c : Thread nD τ).loc main_arg13)⟩, ⟨S128x128, m ((c : Thread nD τ).loc main_arg17)⟩] concatenates_S128x128_S128x128_S128x128_S128x128_S512x128_d0) transposes_S512x128_S128x512_1_0

/-- The four gates' input biases stacked. -/
def BX (c : Dev nD) : FVec F S512 .f32 :=
  concatenate S512 0 [⟨S128, m ((c : Thread nD τ).loc main_arg4)⟩, ⟨S128, m ((c : Thread nD τ).loc main_arg8)⟩, ⟨S128, m ((c : Thread nD τ).loc main_arg12)⟩, ⟨S128, m ((c : Thread nD τ).loc main_arg16)⟩] concatenates_S128_S128_S128_S128_S512_d0

/-- The four gates' hidden biases stacked. -/
def BH (c : Dev nD) : FVec F S512 .f32 :=
  concatenate S512 0 [⟨S128, m ((c : Thread nD τ).loc main_arg6)⟩, ⟨S128, m ((c : Thread nD τ).loc main_arg10)⟩, ⟨S128, m ((c : Thread nD τ).loc main_arg14)⟩, ⟨S128, m ((c : Thread nD τ).loc main_arg18)⟩] concatenates_S128_S128_S128_S128_S512_d0

theorem V_main_v5 (c : Dev nD) : (V m c main_v5 : FVec F S13x512 .bf16) = truncf .bf16 (WxT m c) bitsLt_bf16_f32 := by
  dsimp only [V, hostOps0]
  after_results
  rfl

theorem V_main_v7 (c : Dev nD) : (V m c main_v7 : FVec F S128x512 .bf16) = truncf .bf16 (WhT m c) bitsLt_bf16_f32 := by
  dsimp only [V, hostOps0]
  after_results
  rfl

theorem V_main_v9 (c : Dev nD) : (V m c main_v9 : FVec F S1x512 .f32) = shapeCast S1x512 (addf (BX m c) (BH m c)) shapeCasts_S512_S1x512 := by
  dsimp only [V, hostOps0]
  after_results
  rfl

end Cert.KernelIdeal.Frame

end
-- ==== Proof.Spec.lean ====
/-
  One step of an LSTM cell with a hard-tanh candidate, as one function of its arrays, index by index, over the
  extended reals.  For a batch row `r` and a gate column `q` (the four gates i, f, g, o are the four 128-wide
  column bands of a 512-wide pre-activation),

    pre r q  =  (∑ₖ x[r,k] · Wx[k,q]  +  ∑ₖ h[r,k] · Wh[k,q])  +  (bx[q] + bh[q]),

  and with σ the logistic function and clip z = min 1 (max (−1) z),

    c'[r,j] = σ(pre r (128+j)) · c[r,j]  +  σ(pre r j) · clip(pre r (256+j)),
    h'[r,j] = σ(pre r (384+j)) · clip(c'[r,j]).

  The same pre-activation summed in the order  ((∑ₖ x·Wx + bx) + ∑ₖ h·Wh) + bh  is the same extended real: addition
  of extended reals is commutative and associative (only cancellation and distributivity fail at the infinities, and
  neither is used).  The two clip bounds are kept as the float words −1.0 and 1.0; the logistic function's constant
  one is the word 1.0, which denotes the real number one.
-/
import Idealize.ShloMosaic.PureOps.Ideal
import Idealize.ShloMosaic.PureOps.Ideal.Laws
import Idealize.ShloMosaic.Lib.ValueIdx

noncomputable section

namespace Cert.Lstm

open Idealize.ShloMosaic Idealize.ShloMosaic.ValueIdx

/-- Column `o + j` of the 512-wide pre-activation: column `j` of the gate whose band starts at `o`. -/
def col (o : Nat) (ho : o + 128 ≤ 512) (j : Fin 128) : Fin 512 := ⟨o + j.val, by omega⟩

@[simp] theorem col_val (o : Nat) (ho : o + 128 ≤ 512) (j : Fin 128) : (col o ho j).val = o + j.val := rfl

/-- The lower and upper clip bounds, as the float words the programs spell. -/
def lo : EReal := Ideal.ofBits .f32 0xBF800000#32
def hi : EReal := Ideal.ofBits .f32 0x3F800000#32

/-- The word 1.0 denotes the real number one. -/
theorem ofBits_one : Ideal.ofBits .f32 0x3F800000#32 = 1 := by
  simp [Ideal.ofBits, Ideal.ieee, -EReal.coe_mul]; norm_num

/-- Hard tanh. -/
def clip (z : EReal) : EReal := min hi (max lo z)

section
variable (x : (⟨2, ![262144, 13]⟩ : Shape).Idx → EReal) (h c : (⟨2, ![262144, 128]⟩ : Shape).Idx → EReal)
  (wx : (⟨2, ![13, 512]⟩ : Shape).Idx → EReal) (wh : (⟨2, ![128, 512]⟩ : Shape).Idx → EReal)
  (bx bh : (⟨1, ![512]⟩ : Shape).Idx → EReal)

/-- The gate pre-activation of batch row `r` at column `q`: both projections, then both biases. -/
def pre (r : Fin 262144) (q : Fin 512) : EReal :=
  ((∑ k : Fin 13, x (ix2 r k) * wx (ix2 k q)) + (∑ k : Fin 128, h (ix2 r k) * wh (ix2 k q))) + (bx (ix1 q) + bh (ix1 q))

/-- The same sum with each bias added right after its projection. -/
theorem pre_interleaved (r : Fin 262144) (q : Fin 512) :
    (((∑ k : Fin 13, x (ix2 r k) * wx (ix2 k q)) + bx (ix1 q)) + (∑ k : Fin 128, h (ix2 r k) * wh (ix2 k q))) + bh (ix1 q)
      = pre x h wx wh bx bh r q := by
  unfold pre
  rw [add_assoc, add_add_add_comm]

/-- The new cell state. -/
def cNew (r : Fin 262144) (j : Fin 128) : EReal :=
  Ideal.logistic (pre x h wx wh bx bh r (col 128 (by omega) j)) * c (ix2 r j)
    + Ideal.logistic (pre x h wx wh bx bh r (col 0 (by omega) j)) * clip (pre x h wx wh bx bh r (col 256 (by omega) j))

/-- The new hidden state. -/
def hNew (r : Fin 262144) (j : Fin 128) : EReal :=
  Ideal.logistic (pre x h wx wh bx bh r (col 384 (by omega) j)) * clip (cNew x h c wx wh bx bh r j)

/-- The new cell state as an array. -/
def GC : (⟨2, ![262144, 128]⟩ : Shape).Idx → EReal := fun i => cNew x h c wx wh bx bh (i 0) (i 1)

/-- The new hidden state as an array. -/
def GH : (⟨2, ![262144, 128]⟩ : Shape).Idx → EReal := fun i => hNew x h c wx wh bx bh (i 0) (i 1)

end

end Cert.Lstm

end
-- ==== Proof.LibDotSingle.lean ====
/-
  A matrix product with ONE contracted axis, accumulated into the zero splat and read at the ideal values, as a sum over
  the contracted axis's coordinates `k : Fin n`: the product's own contraction index is a one-coordinate multi-index, and the
  sum is re-indexed through the bijection between such multi-indices and `Fin n`. The caller names what each operand reads
  at contraction coordinate `k` (`L k`, `R k`); at literal dimension numbers the operand indices' coordinates are
  `rfl` on a kept axis and `DotDims.lhsIdx_val_of_single` / `rhsIdx_val_of_single` with `contrEquiv1_symm_val` on the contracted one.
-/
import Idealize.ShloMosaic.PureOps.Ideal
import Idealize.ShloMosaic.PureOps.Ideal.Laws
import Idealize.ShloMosaic.Lib.ValueIdx

noncomputable section

open scoped BigOperators

namespace Cert.LibDotSingle

open Idealize.ShloMosaic Idealize.ShloMosaic.ValueIdx

/-- The product at result index `j` is `∑ k : Fin n, L k * R k` once each operand, at the operand index of `j` and of the
    contraction multi-index with coordinate `k`, is known to read `L k`, respectively `R k`. -/
theorem matmul_zero_single {sl sr so : Shape} {φ₁ φ₂ : FTy} (d : DotDims sl sr so) (prec : Option ContractPrecision)
    (n : Nat) (hr : d.contr.rank = 1) (hs : d.contr.size ⟨0, by omega⟩ = n)
    (lhs : FVec Ideal sl φ₁) (rhs : FVec Ideal sr φ₂) (j : so.Idx) (L R : Fin n → EReal)
    (hl : ∀ k : Fin n, lhs (d.lhsIdx j ((contrEquiv1 d n hr hs).symm k)) = L k)
    (hR : ∀ k : Fin n, rhs (d.rhsIdx j ((contrEquiv1 d n hr hs).symm k)) = R k) :
    FloatOps.matmul d prec lhs rhs (constant so .f32 0x00000000#32) j = ∑ k : Fin n, L k * R k := by
  rw [Ideal.matmul_constant_zero_apply, ← Equiv.sum_comp (contrEquiv1 d n hr hs).symm]
  exact Finset.sum_congr rfl fun k _ => by rw [hl k, hR k]

end Cert.LibDotSingle

end
-- ==== Proof.KI.Payload.lean ====
/-
  The kernel body's arithmetic at an index, over the extended reals.  For one tile of 4096 batch rows the body computes the
  pre-activation  P[p,q] = (∑ₖ x[p,k] · Wx[k,q] + ∑ₖ h[p,k] · Wh[k,q]) + b[0,q]  (two matrix products into a zero
  accumulator, then the bias row broadcast down the tile), cuts it into the four 128-column gate bands, and stores
      c'[p,j] = σ(P[p,128+j]) · c[p,j] + σ(P[p,j]) · clip(P[p,256+j]),      h'[p,j] = σ(P[p,384+j]) · clip(c'[p,j]).
  Changing the float format of an operand is the identity on extended reals, and a reshape to the same shape is the identity.
-/
import proofs.«145202_j12979391168907_2_alg».proof.Proof.Gen.KernelIdeal.Skeleton
import proofs.«145202_j12979391168907_2_alg».proof.Proof.Spec
import proofs.«145202_j12979391168907_2_alg».proof.Proof.LibDotSingle
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Lstm

/-! ## The two matrix products read at an index -/

abbrev dX := dot_S4096x13_S13x512_S4096x512_1_0_0_1_n_n
abbrev dH := dot_S4096x128_S128x512_S4096x512_1_0_0_1_n_n

/-- The left operand's index of result (p, q) at contraction coordinate k is (p, k). -/
theorem lhsX (p : Fin 4096) (q : Fin 512) (k : Fin 13) :
    dX.lhsIdx (ix2 p q) ((contrEquiv1 dX 13 rfl rfl).symm k) = ix2 p k := by
  have hk := contrEquiv1_symm_val dX 13 rfl rfl k
  funext a; apply Fin.ext
  match a with
  | ⟨0, _⟩ =>
    show (dX.lhsIdx (ix2 p q) ((contrEquiv1 dX 13 rfl rfl).symm k) 0).val = p.val
    unfold DotDims.lhsIdx
    rw [dif_neg (show ¬(0 : Fin S4096x13.rank) ∈ dX.lhsBatch by decide), dif_pos (show (0 : Fin S4096x13.rank) ∈ dX.lhsNonContracting by decide)]
    rfl
  | ⟨1, _⟩ => exact (dX.lhsIdx_val_of_single rfl (ix2 p q) _).trans hk

/-- The right operand's index of result (p, q) at contraction coordinate k is (k, q). -/
theorem rhsX (p : Fin 4096) (q : Fin 512) (k : Fin 13) :
    dX.rhsIdx (ix2 p q) ((contrEquiv1 dX 13 rfl rfl).symm k) = ix2 k q := by
  have hk := contrEquiv1_symm_val dX 13 rfl rfl k
  funext a; apply Fin.ext
  match a with
  | ⟨0, _⟩ => exact (dX.rhsIdx_val_of_single rfl (ix2 p q) _).trans hk
  | ⟨1, _⟩ =>
    show (dX.rhsIdx (ix2 p q) ((contrEquiv1 dX 13 rfl rfl).symm k) 1).val = q.val
    unfold DotDims.rhsIdx
    rw [dif_neg (show ¬(1 : Fin S13x512.rank) ∈ dX.rhsBatch by decide), dif_pos (show (1 : Fin S13x512.rank) ∈ dX.rhsNonContracting by decide)]
    rfl

theorem lhsH (p : Fin 4096) (q : Fin 512) (k : Fin 128) :
    dH.lhsIdx (ix2 p q) ((contrEquiv1 dH 128 rfl rfl).symm k) = ix2 p k := by
  have hk := contrEquiv1_symm_val dH 128 rfl rfl k
  funext a; apply Fin.ext
  match a with
  | ⟨0, _⟩ =>
    show (dH.lhsIdx (ix2 p q) ((contrEquiv1 dH 128 rfl rfl).symm k) 0).val = p.val
    unfold DotDims.lhsIdx
    rw [dif_neg (show ¬(0 : Fin S4096x128.rank) ∈ dH.lhsBatch by decide), dif_pos (show (0 : Fin S4096x128.rank) ∈ dH.lhsNonContracting by decide)]
    rfl
  | ⟨1, _⟩ => exact (dH.lhsIdx_val_of_single rfl (ix2 p q) _).trans hk

theorem rhsH (p : Fin 4096) (q : Fin 512) (k : Fin 128) :
    dH.rhsIdx (ix2 p q) ((contrEquiv1 dH 128 rfl rfl).symm k) = ix2 k q := by
  have hk := contrEquiv1_symm_val dH 128 rfl rfl k
  funext a; apply Fin.ext
  match a with
  | ⟨0, _⟩ => exact (dH.rhsIdx_val_of_single rfl (ix2 p q) _).trans hk
  | ⟨1, _⟩ =>
    show (dH.rhsIdx (ix2 p q) ((contrEquiv1 dH 128 rfl rfl).symm k) 1).val = q.val
    unfold DotDims.rhsIdx
    rw [dif_neg (show ¬(1 : Fin S128x512.rank) ∈ dH.rhsBatch by decide), dif_pos (show (1 : Fin S128x512.rank) ∈ dH.rhsNonContracting by decide)]
    rfl

/-- The input projection of a tile, at (p, q): a sum over the thirteen input features. -/
theorem mmX (L : FVec Ideal S4096x13 .bf16) (R : FVec Ideal S13x512 .bf16) (p : Fin 4096) (q : Fin 512) :
    FloatOps.matmul dX none L R (constant S4096x512 .f32 0x00000000#32) (ix2 p q) = ∑ k : Fin 13, L (ix2 p k) * R (ix2 k q) :=
  Cert.LibDotSingle.matmul_zero_single dX none 13 rfl rfl L R (ix2 p q) _ _
    (fun k => congrArg L (lhsX p q k)) (fun k => congrArg R (rhsX p q k))

/-- The hidden projection of a tile, at (p, q): a sum over the 128 hidden units. -/
theorem mmH (L : FVec Ideal S4096x128 .bf16) (R : FVec Ideal S128x512 .bf16) (p : Fin 4096) (q : Fin 512) :
    FloatOps.matmul dH none L R (constant S4096x512 .f32 0x00000000#32) (ix2 p q) = ∑ k : Fin 128, L (ix2 p k) * R (ix2 k q) :=
  Cert.LibDotSingle.matmul_zero_single dH none 128 rfl rfl L R (ix2 p q) _ _
    (fun k => congrArg L (lhsH p q k)) (fun k => congrArg R (rhsH p q k))

/-! ## The payloads -/

section
variable (x0 : Vec Ideal S4096x13 .f32) (x1 : Vec Ideal S4096x128 .f32) (x3 : Vec Ideal S13x512 .bf16)
  (x4 : Vec Ideal S128x512 .bf16) (x5 : Vec Ideal S1x512 .f32) (x2 : Vec Ideal S4096x128 .f32)

/-- The pre-activation of tile row p at column q, from the tile's blocks. -/
def bpre (p : Fin 4096) (q : Fin 512) : EReal :=
  ((∑ k : Fin 13, x0 (ix2 p k) * x3 (ix2 k q)) + (∑ k : Fin 128, x1 (ix2 p k) * x4 (ix2 k q))) + x5 (ix2 (0 : Fin 1) q)

theorem pay1_apply (p : Fin 4096) (q : Fin 512) :
    k0_pay1 (F := Ideal) x0 x1 x3 x4 x5 (ix2 p q) = bpre x0 x1 x3 x4 x5 p q := by
  unfold k0_pay1 bpre
  rw [addf_apply, addf_apply]
  refine congrArg₂ (· + ·) (congrArg₂ (· + ·) ?_ ?_) ?_
  · refine (mmX _ _ p q).trans ?_
    simp only [shapeCast_self]
    rfl
  · refine (mmH _ _ p q).trans ?_
    simp only [shapeCast_self]
    rfl
  · rw [broadcastTo_1b_ab_apply, shapeCast_self]

/-- The cell-state payload at (p, j). -/
theorem pay2_apply (p : Fin 4096) (j : Fin 128) :
    k0_pay2 (F := Ideal) x0 x1 x3 x4 x5 x2 (ix2 p j)
      = Ideal.logistic (bpre x0 x1 x3 x4 x5 p (col 128 (by omega) j)) * x2 (ix2 p j)
        + Ideal.logistic (bpre x0 x1 x3 x4 x5 p (col 0 (by omega) j)) * clip (bpre x0 x1 x3 x4 x5 p (col 256 (by omega) j)) := by
  have s0 := slice2_axis1_apply 0 (k0_pay1 (F := Ideal) x0 x1 x3 x4 x5) slices_S4096x512_o0_0_S4096x128 p j (col 0 (by omega) j) rfl
  have s1 := slice2_axis1_apply 128 (k0_pay1 (F := Ideal) x0 x1 x3 x4 x5) slices_S4096x512_o0_128_S4096x128 p j (col 128 (by omega) j) rfl
  have s2 := slice2_axis1_apply 256 (k0_pay1 (F := Ideal) x0 x1 x3 x4 x5) slices_S4096x512_o0_256_S4096x128 p j (col 256 (by omega) j) rfl
  unfold k0_pay2
  rw [addf_apply, mulf_apply, mulf_apply, minimumf_apply, maximumf_apply, broadcast_apply, broadcast_apply]
  unfold Idealize.ShloMosaic.logistic
  rw [s0, s1, s2, pay1_apply, pay1_apply, pay1_apply]
  rfl

/-- The hidden-state payload at (p, j), over the cell-state payload. -/
theorem pay3_apply (p : Fin 4096) (j : Fin 128) :
    k0_pay3 (F := Ideal) x0 x1 x3 x4 x5 x2 (ix2 p j)
      = Ideal.logistic (bpre x0 x1 x3 x4 x5 p (col 384 (by omega) j)) * clip (k0_pay2 (F := Ideal) x0 x1 x3 x4 x5 x2 (ix2 p j)) := by
  have s3 := slice2_axis1_apply 384 (k0_pay1 (F := Ideal) x0 x1 x3 x4 x5) slices_S4096x512_o0_384_S4096x128 p j (col 384 (by omega) j) rfl
  unfold k0_pay3
  rw [mulf_apply, minimumf_apply, maximumf_apply, broadcast_apply, broadcast_apply]
  unfold Idealize.ShloMosaic.logistic
  rw [s3, pay1_apply]
  rfl

end

end Cert.KernelIdeal.Pay

end
-- ==== Proof.KI.Point.lean ====
/-
  One tile against the whole arrays.  If row p of the tile's input blocks is row r of the arrays x and h (and the cell
  block's entry (p, j) is c[r, j]), the resident blocks are the weight matrices, and the bias row at q is bx[q] + bh[q],
  then the tile's pre-activation at (p, q) is the specification's at (r, q), so the body's cell-state payload at (p, j) is
  the specification's new cell state at (r, j), and its hidden-state payload the new hidden state.
-/
import proofs.«145202_j12979391168907_2_alg».proof.Proof.KI.Payload

noncomputable section

namespace Cert.KernelIdeal.Pay

open Cert.KernelIdeal Cert.KernelIdeal.Gen Idealize.ShloMosaic Idealize.ShloMosaic.ValueIdx Cert.Lstm

theorem bpre_eq (x0 : Vec Ideal S4096x13 .f32) (x1 x2 : Vec Ideal S4096x128 .f32) (x3 : Vec Ideal S13x512 .bf16)
    (x4 : Vec Ideal S128x512 .bf16) (x5 : Vec Ideal S1x512 .f32)
    (X : (⟨2, ![262144, 13]⟩ : Shape).Idx → EReal) (H C : (⟨2, ![262144, 128]⟩ : Shape).Idx → EReal)
    (WX : (⟨2, ![13, 512]⟩ : Shape).Idx → EReal) (WH : (⟨2, ![128, 512]⟩ : Shape).Idx → EReal) (BX BH : (⟨1, ![512]⟩ : Shape).Idx → EReal)
    (p : Fin 4096) (r : Fin 262144)
    (hx : ∀ k : Fin 13, x0 (ix2 p k) = X (ix2 r k)) (hh : ∀ k : Fin 128, x1 (ix2 p k) = H (ix2 r k))
    (hwx : ∀ (k : Fin 13) (q : Fin 512), x3 (ix2 k q) = WX (ix2 k q)) (hwh : ∀ (k : Fin 128) (q : Fin 512), x4 (ix2 k q) = WH (ix2 k q))
    (hb : ∀ q : Fin 512, x5 (ix2 (0 : Fin 1) q) = BX (ix1 q) + BH (ix1 q)) (q : Fin 512) :
    bpre x0 x1 x3 x4 x5 p q = pre X H WX WH BX BH r q := by
  unfold bpre pre
  simp only [hx, hh, hwx, hwh, hb]

theorem point_c (x0 : Vec Ideal S4096x13 .f32) (x1 x2 : Vec Ideal S4096x128 .f32) (x3 : Vec Ideal S13x512 .bf16)
    (x4 : Vec Ideal S128x512 .bf16) (x5 : Vec Ideal S1x512 .f32)
    (X : (⟨2, ![262144, 13]⟩ : Shape).Idx → EReal) (H C : (⟨2, ![262144, 128]⟩ : Shape).Idx → EReal)
    (WX : (⟨2, ![13, 512]⟩ : Shape).Idx → EReal) (WH : (⟨2, ![128, 512]⟩ : Shape).Idx → EReal) (BX BH : (⟨1, ![512]⟩ : Shape).Idx → EReal)
    (p : Fin 4096) (j : Fin 128) (r : Fin 262144)
    (hx : ∀ k : Fin 13, x0 (ix2 p k) = X (ix2 r k)) (hh : ∀ k : Fin 128, x1 (ix2 p k) = H (ix2 r k))
    (hwx : ∀ (k : Fin 13) (q : Fin 512), x3 (ix2 k q) = WX (ix2 k q)) (hwh : ∀ (k : Fin 128) (q : Fin 512), x4 (ix2 k q) = WH (ix2 k q))
    (hb : ∀ q : Fin 512, x5 (ix2 (0 : Fin 1) q) = BX (ix1 q) + BH (ix1 q)) (hc : x2 (ix2 p j) = C (ix2 r j)) :
    k0_pay2 (F := Ideal) x0 x1 x3 x4 x5 x2 (ix2 p j) = cNew X H C WX WH BX BH r j := by
  rw [pay2_apply, bpre_eq x0 x1 x2 x3 x4 x5 X H C WX WH BX BH p r hx hh hwx hwh hb, bpre_eq x0 x1 x2 x3 x4 x5 X H C WX WH BX BH p r hx hh hwx hwh hb,
    bpre_eq x0 x1 x2 x3 x4 x5 X H C WX WH BX BH p r hx hh hwx hwh hb, hc]
  rfl

theorem point_h (x0 : Vec Ideal S4096x13 .f32) (x1 x2 : Vec Ideal S4096x128 .f32) (x3 : Vec Ideal S13x512 .bf16)
    (x4 : Vec Ideal S128x512 .bf16) (x5 : Vec Ideal S1x512 .f32)
    (X : (⟨2, ![262144, 13]⟩ : Shape).Idx → EReal) (H C : (⟨2, ![262144, 128]⟩ : Shape).Idx → EReal)
    (WX : (⟨2, ![13, 512]⟩ : Shape).Idx → EReal) (WH : (⟨2, ![128, 512]⟩ : Shape).Idx → EReal) (BX BH : (⟨1, ![512]⟩ : Shape).Idx → EReal)
    (p : Fin 4096) (j : Fin 128) (r : Fin 262144)
    (hx : ∀ k : Fin 13, x0 (ix2 p k) = X (ix2 r k)) (hh : ∀ k : Fin 128, x1 (ix2 p k) = H (ix2 r k))
    (hwx : ∀ (k : Fin 13) (q : Fin 512), x3 (ix2 k q) = WX (ix2 k q)) (hwh : ∀ (k : Fin 128) (q : Fin 512), x4 (ix2 k q) = WH (ix2 k q))
    (hb : ∀ q : Fin 512, x5 (ix2 (0 : Fin 1) q) = BX (ix1 q) + BH (ix1 q)) (hc : x2 (ix2 p j) = C (ix2 r j)) :
    k0_pay3 (F := Ideal) x0 x1 x3 x4 x5 x2 (ix2 p j) = hNew X H C WX WH BX BH r j := by
  rw [pay3_apply, bpre_eq x0 x1 x2 x3 x4 x5 X H C WX WH BX BH p r hx hh hwx hwh hb,
    point_c x0 x1 x2 x3 x4 x5 X H C WX WH BX BH p j r hx hh hwx hwh hb hc]
  rfl

end Cert.KernelIdeal.Pay

end
-- ==== Proof.KI.Value.lean ====
/-
  The idealized kernel's two result arrays as functions of the argument arrays.  Grid point t stages rows
  t · 4096 … t · 4096 + 4095 of x, h and c, finds the two weight matrices and the bias row resident (their one block is
  the whole array), and writes back rows t · 4096 … of the two results.  Entry (p, j) of what it writes back is therefore
  the specification's new hidden state, respectively new cell state, at row t · 4096 + p and column j; the 64 blocks tile
  the 262144 rows, so each result array ends holding the specification's array.  The weight matrices the region finds are
  the stacked, transposed gate matrices narrowed to the short float format — the identity on extended reals — and the bias
  row at column q is bx[q] + bh[q].
-/
import proofs.«145202_j12979391168907_2_alg».proof.Proof.KI.Run
import proofs.«145202_j12979391168907_2_alg».proof.Proof.KI.HostVal
import proofs.«145202_j12979391168907_2_alg».proof.Proof.KI.Point
import Idealize.ShloMosaic.Lib.Pipeline.Value
import Idealize.ShloMosaic.Lib.ValueLayout

set_option maxRecDepth 16384

noncomputable section

namespace Cert.KernelIdeal.Val

open Cert.KernelIdeal Cert.KernelIdeal.Gen Cert.KernelIdeal.Frame Cert.KernelIdeal.Pay
open Idealize.ShloMosaic Idealize.ShloMosaic.TcCoe Idealize.SL.Sem Idealize.ShloMosaic.ValueIdx Cert.Lstm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the three streamed inputs and the two outputs move one block down the rows per point;
    the three resident inputs stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The input blocks read at an entry -/

theorem emb0 (t : Fin cfg0.N) (p : Fin 4096) (k : Fin 13) (r : Fin 262144) (hr : r.val = t.val * 4096 + p.val) :
    ((cfg0.win 0).blk t).view.emb (ix2 p k) = ix2 r k := by
  obtain ⟨e00, e01, e10, e11, e20, e21, -⟩ := idx_facts t
  funext a; apply Fin.ext
  match a with
  | ⟨0, _⟩ => show win0_0.index t (0 : Fin 2) * 4096 + 1 * p.val = r.val; omega
  | ⟨1, _⟩ => show win0_0.index t (1 : Fin 2) * 13 + 1 * k.val = k.val; omega

/-- Row p of point t's block of x is row t · 4096 + p of the array. -/
theorem iblk0_apply (c : Dev nD) (t : Fin cfg0.N) (p : Fin 4096) (k : Fin 13) (r : Fin 262144) (hr : r.val = t.val * 4096 + p.val) :
    iblk m c 0 t (ix2 p k) = m ((c : Thread nD τ).loc main_arg0) (ix2 r k) := by
  show V m c main_arg0 (((cfg0.win 0).blk t).view.emb (ix2 p k)) = _
  rw [V_main_arg0, emb0 t p k r hr]

theorem emb1 (t : Fin cfg0.N) (p : Fin 4096) (k : Fin 128) (r : Fin 262144) (hr : r.val = t.val * 4096 + p.val) :
    ((cfg0.win 1).blk t).view.emb (ix2 p k) = ix2 r k := by
  obtain ⟨e00, e01, e10, e11, e20, e21, -⟩ := idx_facts t
  funext a; apply Fin.ext
  match a with
  | ⟨0, _⟩ => show win0_1.index t (0 : Fin 2) * 4096 + 1 * p.val = r.val; omega
  | ⟨1, _⟩ => show win0_1.index t (1 : Fin 2) * 128 + 1 * k.val = k.val; omega

/-- Row p of point t's block of h is row t · 4096 + p of the array. -/
theorem iblk1_apply (c : Dev nD) (t : Fin cfg0.N) (p : Fin 4096) (k : Fin 128) (r : Fin 262144) (hr : r.val = t.val * 4096 + p.val) :
    iblk m c 1 t (ix2 p k) = m ((c : Thread nD τ).loc main_arg1) (ix2 r k) := by
  show V m c main_arg1 (((cfg0.win 1).blk t).view.emb (ix2 p k)) = _
  rw [V_main_arg1, emb1 t p k r hr]

theorem emb2 (t : Fin cfg0.N) (p : Fin 4096) (k : Fin 128) (r : Fin 262144) (hr : r.val = t.val * 4096 + p.val) :
    ((cfg0.win 2).blk t).view.emb (ix2 p k) = ix2 r k := by
  obtain ⟨e00, e01, e10, e11, e20, e21, -⟩ := idx_facts t
  funext a; apply Fin.ext
  match a with
  | ⟨0, _⟩ => show win0_2.index t (0 : Fin 2) * 4096 + 1 * p.val = r.val; omega
  | ⟨1, _⟩ => show win0_2.index t (1 : Fin 2) * 128 + 1 * k.val = k.val; omega

/-- Row p of point t's block of c is row t · 4096 + p of the array. -/
theorem iblk2_apply (c : Dev nD) (t : Fin cfg0.N) (p : Fin 4096) (k : Fin 128) (r : Fin 262144) (hr : r.val = t.val * 4096 + p.val) :
    iblk m c 2 t (ix2 p k) = m ((c : Thread nD τ).loc main_arg2) (ix2 r k) := by
  show V m c main_arg2 (((cfg0.win 2).blk t).view.emb (ix2 p k)) = _
  rw [V_main_arg2, emb2 t p k r hr]

theorem emb3 (t : Fin cfg0.N) (k : Fin 13) (q : Fin 512) :
    ((cfg0.win 3).blk t).view.emb (ix2 k q) = ix2 k q := by
  obtain ⟨-, -, -, -, -, -, e30, e31, e40, e41, e50, e51, -⟩ := idx_facts t
  funext a; apply Fin.ext
  match a with
  | ⟨0, _⟩ => show win0_3.index t (0 : Fin 2) * 13 + 1 * k.val = k.val; omega
  | ⟨1, _⟩ => show win0_3.index t (1 : Fin 2) * 512 + 1 * q.val = q.val; omega

theorem emb4 (t : Fin cfg0.N) (k : Fin 128) (q : Fin 512) :
    ((cfg0.win 4).blk t).view.emb (ix2 k q) = ix2 k q := by
  obtain ⟨-, -, -, -, -, -, e30, e31, e40, e41, e50, e51, -⟩ := idx_facts t
  funext a; apply Fin.ext
  match a with
  | ⟨0, _⟩ => show win0_4.index t (0 : Fin 2) * 128 + 1 * k.val = k.val; omega
  | ⟨1, _⟩ => show win0_4.index t (1 : Fin 2) * 512 + 1 * q.val = q.val; omega

theorem emb5 (t : Fin cfg0.N) (k : Fin 1) (q : Fin 512) :
    ((cfg0.win 5).blk t).view.emb (ix2 k q) = ix2 k q := by
  obtain ⟨-, -, -, -, -, -, e30, e31, e40, e41, e50, e51, -⟩ := idx_facts t
  funext a; apply Fin.ext
  match a with
  | ⟨0, _⟩ => show win0_5.index t (0 : Fin 2) * 1 + 1 * k.val = k.val; omega
  | ⟨1, _⟩ => show win0_5.index t (1 : Fin 2) * 512 + 1 * q.val = q.val; omega

/-- The resident input-weight block is the stacked, transposed input weights. -/
theorem iblk3_apply (c : Dev nD) (t : Fin cfg0.N) (k : Fin 13) (q : Fin 512) :
    iblk m c 3 t (ix2 k q) = WxT m c (ix2 k q) := by
  show V m c main_v5 (((cfg0.win 3).blk t).view.emb (ix2 k q)) = _
  rw [emb3 t k q, V_main_v5]
  rfl

/-- The resident hidden-weight block is the stacked, transposed hidden weights. -/
theorem iblk4_apply (c : Dev nD) (t : Fin cfg0.N) (k : Fin 128) (q : Fin 512) :
    iblk m c 4 t (ix2 k q) = WhT m c (ix2 k q) := by
  show V m c main_v7 (((cfg0.win 4).blk t).view.emb (ix2 k q)) = _
  rw [emb4 t k q, V_main_v7]
  rfl

/-- The resident bias row at column q is the sum of the two stacked biases at q. -/
theorem iblk5_apply (c : Dev nD) (t : Fin cfg0.N) (q : Fin 512) :
    iblk m c 5 t (ix2 (0 : Fin 1) q) = BX m c (ix1 q) + BH m c (ix1 q) := by
  show V m c main_v9 (((cfg0.win 5).blk t).view.emb (ix2 (0 : Fin 1) q)) = _
  rw [emb5 t 0 q, V_main_v9, shapeCast_a_1a_apply]
  rfl

/-! ## The output blocks -/

theorem embOut6 (t : Fin cfg0.N) (p : Fin 4096) (j : Fin 128) (r : Fin 262144) (hr : r.val = t.val * 4096 + p.val) :
    ((cfg0.win 6).blk t).view.emb (ix2 p j) = ix2 r j := by
  obtain ⟨-, -, -, -, -, -, -, -, -, -, -, -, e60, e61, e70, e71⟩ := idx_facts t
  funext a; apply Fin.ext
  match a with
  | ⟨0, _⟩ => show win0_6.index t (0 : Fin 2) * 4096 + 1 * p.val = r.val; omega
  | ⟨1, _⟩ => show win0_6.index t (1 : Fin 2) * 128 + 1 * j.val = j.val; omega

theorem embOut7 (t : Fin cfg0.N) (p : Fin 4096) (j : Fin 128) (r : Fin 262144) (hr : r.val = t.val * 4096 + p.val) :
    ((cfg0.win 7).blk t).view.emb (ix2 p j) = ix2 r j := by
  obtain ⟨-, -, -, -, -, -, -, -, -, -, -, -, e60, e61, e70, e71⟩ := idx_facts t
  funext a; apply Fin.ext
  match a with
  | ⟨0, _⟩ => show win0_7.index t (0 : Fin 2) * 4096 + 1 * p.val = r.val; omega
  | ⟨1, _⟩ => show win0_7.index t (1 : Fin 2) * 128 + 1 * j.val = j.val; omega

/-- An index of the array is in point t's block iff each coordinate is in the block's range on its axis. -/
theorem mem_blk6 (t : Fin cfg0.N) (i : S262144x128.Idx) :
    i ∈ ((cfg0.win 6).blk t).view.set ↔ ∀ a : Fin 2, win0_6.index t a * S4096x128.size a ≤ (i a).val ∧ (i a).val < win0_6.index t a * S4096x128.size a + S4096x128.size a := by
  show i ∈ ((View.whole main_v10_0).slice (win0_6.rect t)).set ↔ _
  rw [View.set_slice_whole, Rect.mem_set_unit]
  exact Iff.rfl

/-- Every row of the array lies in the block of the point whose number is the row's number divided by the tile height. -/
theorem cover6 (i : S262144x128.Idx) : ∃ t : Fin cfg0.N, (cfg0.win 6).flush t = true ∧ i ∈ ((cfg0.win 6).blk t).view.set := by
  have hi0 : (i 0).val < 262144 := (i 0).isLt
  have hi1 : (i 1).val < 128 := (i 1).isLt
  have hN : grid0.N = 64 := N_0
  have ht : (i 0).val / 4096 < grid0.N := by rw [hN]; omega
  obtain ⟨-, -, -, -, -, -, -, -, -, -, -, -, e60, e61, e70, e71⟩ := idx_facts ⟨(i 0).val / 4096, ht⟩
  refine ⟨⟨(i 0).val / 4096, ht⟩, flush0_6 _, ?_⟩
  rw [mem_blk6]
  intro a
  match a with
  | ⟨0, _⟩ =>
    show win0_6.index ⟨(i 0).val / 4096, ht⟩ (0 : Fin 2) * 4096 ≤ (i 0).val ∧ (i 0).val < win0_6.index ⟨(i 0).val / 4096, ht⟩ (0 : Fin 2) * 4096 + 4096
    rw [e60]; show (i 0).val / 4096 * 4096 ≤ (i 0).val ∧ (i 0).val < (i 0).val / 4096 * 4096 + 4096; omega
  | ⟨1, _⟩ =>
    show win0_6.index ⟨(i 0).val / 4096, ht⟩ (1 : Fin 2) * 128 ≤ (i 1).val ∧ (i 1).val < win0_6.index ⟨(i 0).val / 4096, ht⟩ (1 : Fin 2) * 128 + 128
    rw [e61]; omega

/-- An index of the array is in point t's block iff each coordinate is in the block's range on its axis. -/
theorem mem_blk7 (t : Fin cfg0.N) (i : S262144x128.Idx) :
    i ∈ ((cfg0.win 7).blk t).view.set ↔ ∀ a : Fin 2, win0_7.index t a * S4096x128.size a ≤ (i a).val ∧ (i a).val < win0_7.index t a * S4096x128.size a + S4096x128.size a := by
  show i ∈ ((View.whole main_v10_1).slice (win0_7.rect t)).set ↔ _
  rw [View.set_slice_whole, Rect.mem_set_unit]
  exact Iff.rfl

/-- Every row of the array lies in the block of the point whose number is the row's number divided by the tile height. -/
theorem cover7 (i : S262144x128.Idx) : ∃ t : Fin cfg0.N, (cfg0.win 7).flush t = true ∧ i ∈ ((cfg0.win 7).blk t).view.set := by
  have hi0 : (i 0).val < 262144 := (i 0).isLt
  have hi1 : (i 1).val < 128 := (i 1).isLt
  have hN : grid0.N = 64 := N_0
  have ht : (i 0).val / 4096 < grid0.N := by rw [hN]; omega
  obtain ⟨-, -, -, -, -, -, -, -, -, -, -, -, e60, e61, e70, e71⟩ := idx_facts ⟨(i 0).val / 4096, ht⟩
  refine ⟨⟨(i 0).val / 4096, ht⟩, flush0_7 _, ?_⟩
  rw [mem_blk7]
  intro a
  match a with
  | ⟨0, _⟩ =>
    show win0_7.index ⟨(i 0).val / 4096, ht⟩ (0 : Fin 2) * 4096 ≤ (i 0).val ∧ (i 0).val < win0_7.index ⟨(i 0).val / 4096, ht⟩ (0 : Fin 2) * 4096 + 4096
    rw [e70]; show (i 0).val / 4096 * 4096 ≤ (i 0).val ∧ (i 0).val < (i 0).val / 4096 * 4096 + 4096; omega
  | ⟨1, _⟩ =>
    show win0_7.index ⟨(i 0).val / 4096, ht⟩ (1 : Fin 2) * 128 ≤ (i 1).val ∧ (i 1).val < win0_7.index ⟨(i 0).val / 4096, ht⟩ (1 : Fin 2) * 128 + 128
    rw [e71]; omega

/-! ## What each point writes back, and the arrays after the run -/

/-- What the body leaves in the hidden-state buffer at point t, at an entry of the block, is the specification at that entry's place in the array. -/
theorem read6 (c : Dev nD) (t : Fin cfg0.N) (y : S4096x128.Idx) :
    k0_pay3 (F := Ideal) (iblk m c 0 t) (iblk m c 1 t) (iblk m c 3 t) (iblk m c 4 t) (iblk m c 5 t) (iblk m c 2 t) y
      = (GH (m ((c : Thread nD τ).loc main_arg0)) (m ((c : Thread nD τ).loc main_arg1)) (m ((c : Thread nD τ).loc main_arg2)) (WxT m c) (WhT m c) (BX m c) (BH m c)) (((cfg0.win 6).blk t).view.emb y) := by
  obtain ⟨p, j, rfl⟩ : ∃ (p : Fin 4096) (j : Fin 128), y = ix2 p j := ⟨y 0, y 1, eq_ix2 y⟩
  have hN : grid0.N = 64 := N_0
  have htl : t.val < 64 := lt_of_lt_of_eq (t.isLt : t.val < grid0.N) N_0
  have hr : t.val * 4096 + p.val < 262144 := by have := p.isLt; omega
  rw [embOut6 t p j ⟨t.val * 4096 + p.val, hr⟩ rfl]
  exact point_h (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2)) (WxT m c) (WhT m c) (BX m c) (BH m c) p j ⟨t.val * 4096 + p.val, hr⟩
    (fun k => iblk0_apply m c t p k _ rfl) (fun k => iblk1_apply m c t p k _ rfl)
    (fun k q => iblk3_apply m c t k q) (fun k q => iblk4_apply m c t k q) (fun q => iblk5_apply m c t q)
    (iblk2_apply m c t p j _ rfl)

/-- Point t writes back block t of the specification's array. -/
theorem flushed6 (c : Dev nD) (t : Fin cfg0.N) :
    (dats m 0 c).flushed 6 t = ((cfg0.win 6).blk t).view.read (Elt Ideal) (GH (m ((c : Thread nD τ).loc main_arg0)) (m ((c : Thread nD τ).loc main_arg1)) (m ((c : Thread nD τ).loc main_arg2)) (WxT m c) (WhT m c) (BX m c) (BH m c)) := by
  show (cfg0.win 6).cut (grid0.coords t) ((dats m 0 c).after 6 t) = _
  rw [after6]
  unfold outH
  rw [View.canon_unit_zero hz]
  simp only [View.ld_unit_zero (S := S4096x13) hz, View.ld_unit_zero (S := S4096x128) hz, View.ld_unit_zero (S := S13x512) hz,
    View.ld_unit_zero (S := S128x512) hz, View.ld_unit_zero (S := S1x512) hz]
  funext y
  exact read6 m c t y

/-- The blocks tile the array, so it ends holding the specification's array. -/
theorem final6 (c : Dev nD) : (dats m 0 c).arrAt 6 cfg0.N = (GH (m ((c : Thread nD τ).loc main_arg0)) (m ((c : Thread nD τ).loc main_arg1)) (m ((c : Thread nD τ).loc main_arg2)) (WxT m c) (WhT m c) (BX m c) (BH m c)) :=
  (dats m 0 c).arrAt_eq_of_cover 6 (GH (m ((c : Thread nD τ).loc main_arg0)) (m ((c : Thread nD τ).loc main_arg1)) (m ((c : Thread nD τ).loc main_arg2)) (WxT m c) (WhT m c) (BX m c) (BH m c)) (fun t _ => flushed6 m c t) cover6

/-- What the body leaves in the cell-state buffer at point t, at an entry of the block, is the specification at that entry's place in the array. -/
theorem read7 (c : Dev nD) (t : Fin cfg0.N) (y : S4096x128.Idx) :
    k0_pay2 (F := Ideal) (iblk m c 0 t) (iblk m c 1 t) (iblk m c 3 t) (iblk m c 4 t) (iblk m c 5 t) (iblk m c 2 t) y
      = (GC (m ((c : Thread nD τ).loc main_arg0)) (m ((c : Thread nD τ).loc main_arg1)) (m ((c : Thread nD τ).loc main_arg2)) (WxT m c) (WhT m c) (BX m c) (BH m c)) (((cfg0.win 7).blk t).view.emb y) := by
  obtain ⟨p, j, rfl⟩ : ∃ (p : Fin 4096) (j : Fin 128), y = ix2 p j := ⟨y 0, y 1, eq_ix2 y⟩
  have hN : grid0.N = 64 := N_0
  have htl : t.val < 64 := lt_of_lt_of_eq (t.isLt : t.val < grid0.N) N_0
  have hr : t.val * 4096 + p.val < 262144 := by have := p.isLt; omega
  rw [embOut7 t p j ⟨t.val * 4096 + p.val, hr⟩ rfl]
  exact point_c (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2)) (WxT m c) (WhT m c) (BX m c) (BH m c) p j ⟨t.val * 4096 + p.val, hr⟩
    (fun k => iblk0_apply m c t p k _ rfl) (fun k => iblk1_apply m c t p k _ rfl)
    (fun k q => iblk3_apply m c t k q) (fun k q => iblk4_apply m c t k q) (fun q => iblk5_apply m c t q)
    (iblk2_apply m c t p j _ rfl)

/-- Point t writes back block t of the specification's array. -/
theorem flushed7 (c : Dev nD) (t : Fin cfg0.N) :
    (dats m 0 c).flushed 7 t = ((cfg0.win 7).blk t).view.read (Elt Ideal) (GC (m ((c : Thread nD τ).loc main_arg0)) (m ((c : Thread nD τ).loc main_arg1)) (m ((c : Thread nD τ).loc main_arg2)) (WxT m c) (WhT m c) (BX m c) (BH m c)) := by
  show (cfg0.win 7).cut (grid0.coords t) ((dats m 0 c).after 7 t) = _
  rw [after7]
  unfold outC
  rw [View.canon_unit_zero hz]
  simp only [View.ld_unit_zero (S := S4096x13) hz, View.ld_unit_zero (S := S4096x128) hz, View.ld_unit_zero (S := S13x512) hz,
    View.ld_unit_zero (S := S128x512) hz, View.ld_unit_zero (S := S1x512) hz]
  funext y
  exact read7 m c t y

/-- The blocks tile the array, so it ends holding the specification's array. -/
theorem final7 (c : Dev nD) : (dats m 0 c).arrAt 7 cfg0.N = (GC (m ((c : Thread nD τ).loc main_arg0)) (m ((c : Thread nD τ).loc main_arg1)) (m ((c : Thread nD τ).loc main_arg2)) (WxT m c) (WhT m c) (BX m c) (BH m c)) :=
  (dats m 0 c).arrAt_eq_of_cover 7 (GC (m ((c : Thread nD τ).loc main_arg0)) (m ((c : Thread nD τ).loc main_arg1)) (m ((c : Thread nD τ).loc main_arg2)) (WxT m c) (WhT m c) (BX m c) (BH m c)) (fun t _ => flushed7 m c t) cover7

/-! ## The run, read -/

/-- Every weakly fair execution of the idealized kernel's @main terminates with the hidden-state array (returned twice)
    and the cell-state array at the specification's arrays of the arguments, and the arguments unchanged. -/
theorem run : θ_run defs (onTc (τ := τ) (main (F := Ideal))) ⟨m, fun _ => 0, ρ⟩ fun r => ∀ c : Dev nD,
      r.2.mem ((c.tc : Thread nD τ).loc main_v10_0) = (GH (m ((c : Thread nD τ).loc main_arg0)) (m ((c : Thread nD τ).loc main_arg1)) (m ((c : Thread nD τ).loc main_arg2)) (WxT m c) (WhT m c) (BX m c) (BH m c))
      ∧ r.2.mem ((c.tc : Thread nD τ).loc main_v10_0) = (GH (m ((c : Thread nD τ).loc main_arg0)) (m ((c : Thread nD τ).loc main_arg1)) (m ((c : Thread nD τ).loc main_arg2)) (WxT m c) (WhT m c) (BX m c) (BH m c))
      ∧ r.2.mem ((c.tc : Thread nD τ).loc main_v10_1) = (GC (m ((c : Thread nD τ).loc main_arg0)) (m ((c : Thread nD τ).loc main_arg1)) (m ((c : Thread nD τ).loc main_arg2)) (WxT m c) (WhT m c) (BX m c) (BH m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 6).trans (final6 m c), ((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩)
    (run_main m ρ)

end Cert.KernelIdeal.Val

end
-- ==== Proof.RefIsSpec.lean ====
/-
  The reference program computes, element by element, the new cell state and the new hidden state of the
  specification.  Its pre-activation is summed in the order ((x·Wx + bx) + h·Wh) + bh, the rearrangement of the
  specification's sum that `Cert.Lstm.pre_interleaved` identifies with it; the three logistic gates are spelled
  1 / (1 + exp (−z)), which is the logistic function by definition once the word 1.0 is read as the number one; the
  two clips are a maximum with the word −1.0 followed by a minimum with the word 1.0, the specification's hard tanh.
  The transposed weight matrices and the joined bias vectors enter only as arrays read at an index.
-/
import proofs.«145202_j12979391168907_2_alg».proof.Proof.Gen.ReferenceIdeal.Read
import proofs.«145202_j12979391168907_2_alg».proof.Proof.Spec

namespace Cert.ReferenceIdeal.RefValue
open Cert.ReferenceIdeal Cert.ReferenceIdeal.Read Idealize.ShloMosaic Idealize.ShloMosaic.ValueIdx

/-- 1 / (1 + exp (−z)), with the constant one spelled as the word 1.0, is the logistic function. -/
theorem logistic_spelled (z : EReal) :
    Ideal.div (Ideal.ofBits .f32 0x3F800000#32) (Ideal.ofBits .f32 0x3F800000#32 + Ideal.exp (-z)) = Ideal.logistic z := by
  rw [Cert.Lstm.ofBits_one]; rfl

section
variable (x0 : (⟨S262144x13, .f32⟩ : BufTy).Contents (Elt Ideal)) (x1 x2 : (⟨S262144x128, .f32⟩ : BufTy).Contents (Elt Ideal)) (x3 : (⟨S128x13, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x13, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x13, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x13, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal))

/-- The pre-activation at row `r`, column `q`: the reference's order of summation is the interleaved one. -/
theorem pre_at (r : Fin 262144) (q : Fin 512) :
    val_main_v14 (F := Ideal) x0 x1 x3 x4 x5 x6 x7 x8 x9 x10 x11 x12 x13 x14 x15 x16 x17 x18 (ix2 r q) = Cert.Lstm.pre x0 x1 (val_main_v4 (F := Ideal) x3 x7 x11 x15) (val_main_v9 (F := Ideal) x5 x9 x13 x17) (val_main_v1 (F := Ideal) x4 x8 x12 x16) (val_main_v3 (F := Ideal) x6 x10 x14 x18) r q := by
  rw [val_main_v14_apply, val_main_v11_apply, val_main_v8_apply, val_main_v5_apply, val_main_v7_apply, val_main_v6_apply,
    val_main_v10_apply, val_main_v13_apply, val_main_v12_apply]
  have el5 : ∀ k : Fin 13, lidx_main_v5 (ix2 r q) k = ix2 r k := fun k => funext fun a => Fin.ext (by match a with | ⟨0, _⟩ => rfl | ⟨1, _⟩ => rfl)
  have er5 : ∀ k : Fin 13, ridx_main_v5 (ix2 r q) k = ix2 k q := fun k => funext fun a => Fin.ext (by match a with | ⟨0, _⟩ => rfl | ⟨1, _⟩ => rfl)
  have el10 : ∀ k : Fin 128, lidx_main_v10 (ix2 r q) k = ix2 r k := fun k => funext fun a => Fin.ext (by match a with | ⟨0, _⟩ => rfl | ⟨1, _⟩ => rfl)
  have er10 : ∀ k : Fin 128, ridx_main_v10 (ix2 r q) k = ix2 k q := fun k => funext fun a => Fin.ext (by match a with | ⟨0, _⟩ => rfl | ⟨1, _⟩ => rfl)
  have e7 : idx_main_v6 (idx_main_v7 (ix2 r q)) = ix1 q :=
    funext fun a => Fin.ext (by match a with | ⟨0, _⟩ => rfl)
  have e13 : idx_main_v12 (idx_main_v13 (ix2 r q)) = ix1 q :=
    funext fun a => Fin.ext (by match a with | ⟨0, _⟩ => rfl)
  simp only [el5, er5, el10, er10, e7, e13, Ideal.addf_def]
  exact Cert.Lstm.pre_interleaved _ _ _ _ _ _ r q

/-- The input gate: the logistic function of the band of columns 0 … 127. -/
theorem gate_i (r : Fin 262144) (j : Fin 128) :
    val_main_v24 (F := Ideal) x0 x1 x3 x4 x5 x6 x7 x8 x9 x10 x11 x12 x13 x14 x15 x16 x17 x18 (ix2 r j)
      = Ideal.logistic (Cert.Lstm.pre x0 x1 (val_main_v4 (F := Ideal) x3 x7 x11 x15) (val_main_v9 (F := Ideal) x5 x9 x13 x17) (val_main_v1 (F := Ideal) x4 x8 x12 x16) (val_main_v3 (F := Ideal) x6 x10 x14 x18) r (Cert.Lstm.col 0 (by omega) j)) := by
  rw [val_main_v24_apply, val_main_v23_apply, val_main_cst_0_apply, val_main_v22_apply, val_main_v21_apply,
    val_main_cst_apply, val_main_v20_apply, val_main_v19_apply, val_main_v15_apply]
  have e : idx_main_v15 (ix2 r j) = ix2 r (Cert.Lstm.col 0 (by omega) j) :=
    funext fun a => Fin.ext (by
      match a with
      | ⟨0, _⟩ => rfl
      | ⟨1, _⟩ => show j.val = 0 + j.val; omega)
  rw [e, pre_at]
  simp only [Ideal.hostDivf_def, Ideal.ofBits_def, Ideal.addf_def, Ideal.hostUnary_exp_def, Ideal.hostNegf_def, Ideal.negf_def]
  exact logistic_spelled _

/-- The forget gate: the logistic function of the band of columns 128 … 255. -/
theorem gate_f (r : Fin 262144) (j : Fin 128) :
    val_main_v30 (F := Ideal) x0 x1 x3 x4 x5 x6 x7 x8 x9 x10 x11 x12 x13 x14 x15 x16 x17 x18 (ix2 r j)
      = Ideal.logistic (Cert.Lstm.pre x0 x1 (val_main_v4 (F := Ideal) x3 x7 x11 x15) (val_main_v9 (F := Ideal) x5 x9 x13 x17) (val_main_v1 (F := Ideal) x4 x8 x12 x16) (val_main_v3 (F := Ideal) x6 x10 x14 x18) r (Cert.Lstm.col 128 (by omega) j)) := by
  rw [val_main_v30_apply, val_main_v29_apply, val_main_cst_2_apply, val_main_v28_apply, val_main_v27_apply,
    val_main_cst_1_apply, val_main_v26_apply, val_main_v25_apply, val_main_v16_apply]
  have e : idx_main_v16 (ix2 r j) = ix2 r (Cert.Lstm.col 128 (by omega) j) :=
    funext fun a => Fin.ext (by
      match a with
      | ⟨0, _⟩ => rfl
      | ⟨1, _⟩ => show 128 + j.val = 128 + j.val; omega)
  rw [e, pre_at]
  simp only [Ideal.hostDivf_def, Ideal.ofBits_def, Ideal.addf_def, Ideal.hostUnary_exp_def, Ideal.hostNegf_def, Ideal.negf_def]
  exact logistic_spelled _

/-- The output gate: the logistic function of the band of columns 384 … 511. -/
theorem gate_o (r : Fin 262144) (j : Fin 128) :
    val_main_v37 (F := Ideal) x0 x1 x3 x4 x5 x6 x7 x8 x9 x10 x11 x12 x13 x14 x15 x16 x17 x18 (ix2 r j)
      = Ideal.logistic (Cert.Lstm.pre x0 x1 (val_main_v4 (F := Ideal) x3 x7 x11 x15) (val_main_v9 (F := Ideal) x5 x9 x13 x17) (val_main_v1 (F := Ideal) x4 x8 x12 x16) (val_main_v3 (F := Ideal) x6 x10 x14 x18) r (Cert.Lstm.col 384 (by omega) j)) := by
  rw [val_main_v37_apply, val_main_v36_apply, val_main_cst_6_apply, val_main_v35_apply, val_main_v34_apply,
    val_main_cst_5_apply, val_main_v33_apply, val_main_v32_apply, val_main_v18_apply]
  have e : idx_main_v18 (ix2 r j) = ix2 r (Cert.Lstm.col 384 (by omega) j) :=
    funext fun a => Fin.ext (by
      match a with
      | ⟨0, _⟩ => rfl
      | ⟨1, _⟩ => show 384 + j.val = 384 + j.val; omega)
  rw [e, pre_at]
  simp only [Ideal.hostDivf_def, Ideal.ofBits_def, Ideal.addf_def, Ideal.hostUnary_exp_def, Ideal.hostNegf_def, Ideal.negf_def]
  exact logistic_spelled _

/-- The candidate: the hard tanh of the band of columns 256 … 383. -/
theorem gate_g (r : Fin 262144) (j : Fin 128) :
    val_main_v31 (F := Ideal) x0 x1 x3 x4 x5 x6 x7 x8 x9 x10 x11 x12 x13 x14 x15 x16 x17 x18 (ix2 r j)
      = Cert.Lstm.clip (Cert.Lstm.pre x0 x1 (val_main_v4 (F := Ideal) x3 x7 x11 x15) (val_main_v9 (F := Ideal) x5 x9 x13 x17) (val_main_v1 (F := Ideal) x4 x8 x12 x16) (val_main_v3 (F := Ideal) x6 x10 x14 x18) r (Cert.Lstm.col 256 (by omega) j)) := by
  rw [val_main_v31_apply, val_main_call0_v4_apply, val_main_call0_v3_apply, val_main_cst_4_apply, val_main_call0_v2_apply,
    val_main_call0_v1_apply, val_main_call0_v0_apply, val_main_cst_3_apply, val_main_v17_apply]
  have e : idx_main_v17 (ix2 r j) = ix2 r (Cert.Lstm.col 256 (by omega) j) :=
    funext fun a => Fin.ext (by match a with | ⟨0, _⟩ => rfl | ⟨1, _⟩ => rfl)
  rw [e, pre_at]
  simp only [Ideal.minimumf_def, Ideal.maximumf_def, Ideal.ofBits_def]
  rfl

/-- The new cell state at row `r`, column `j`. -/
theorem c_at (r : Fin 262144) (j : Fin 128) :
    val_main_v40 (F := Ideal) x0 x1 x2 x3 x4 x5 x6 x7 x8 x9 x10 x11 x12 x13 x14 x15 x16 x17 x18 (ix2 r j) = Cert.Lstm.cNew x0 x1 x2 (val_main_v4 (F := Ideal) x3 x7 x11 x15) (val_main_v9 (F := Ideal) x5 x9 x13 x17) (val_main_v1 (F := Ideal) x4 x8 x12 x16) (val_main_v3 (F := Ideal) x6 x10 x14 x18) r j := by
  rw [val_main_v40_apply, val_main_v38_apply, val_main_v39_apply, gate_f, gate_i, gate_g]
  simp only [Ideal.addf_def, Ideal.mulf_def]
  rfl

/-- The new hidden state at row `r`, column `j`. -/
theorem h_at (r : Fin 262144) (j : Fin 128) :
    val_main_v42 (F := Ideal) x0 x1 x2 x3 x4 x5 x6 x7 x8 x9 x10 x11 x12 x13 x14 x15 x16 x17 x18 (ix2 r j) = Cert.Lstm.hNew x0 x1 x2 (val_main_v4 (F := Ideal) x3 x7 x11 x15) (val_main_v9 (F := Ideal) x5 x9 x13 x17) (val_main_v1 (F := Ideal) x4 x8 x12 x16) (val_main_v3 (F := Ideal) x6 x10 x14 x18) r j := by
  rw [val_main_v42_apply, gate_o, val_main_v41_apply, val_main_call1_v4_apply, val_main_call1_v3_apply, val_main_cst_8_apply,
    val_main_call1_v2_apply, val_main_call1_v1_apply, val_main_call1_v0_apply, val_main_cst_7_apply, c_at]
  simp only [Ideal.mulf_def, Ideal.minimumf_def, Ideal.maximumf_def, Ideal.ofBits_def]
  rfl

end

theorem h_eq (x0 : (⟨S262144x13, .f32⟩ : BufTy).Contents (Elt Ideal)) (x1 x2 : (⟨S262144x128, .f32⟩ : BufTy).Contents (Elt Ideal)) (x3 : (⟨S128x13, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x13, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x13, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x13, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) :
    val_main_v42 (F := Ideal) x0 x1 x2 x3 x4 x5 x6 x7 x8 x9 x10 x11 x12 x13 x14 x15 x16 x17 x18
      = Cert.Lstm.GH x0 x1 x2 (val_main_v4 (F := Ideal) x3 x7 x11 x15) (val_main_v9 (F := Ideal) x5 x9 x13 x17) (val_main_v1 (F := Ideal) x4 x8 x12 x16) (val_main_v3 (F := Ideal) x6 x10 x14 x18) := by
  funext i
  obtain ⟨r, j, rfl⟩ : ∃ (r : Fin 262144) (j : Fin 128), i = ix2 r j := ⟨i 0, i 1, eq_ix2 i⟩
  exact h_at x0 x1 x2 x3 x4 x5 x6 x7 x8 x9 x10 x11 x12 x13 x14 x15 x16 x17 x18 r j

theorem c_eq (x0 : (⟨S262144x13, .f32⟩ : BufTy).Contents (Elt Ideal)) (x1 x2 : (⟨S262144x128, .f32⟩ : BufTy).Contents (Elt Ideal)) (x3 : (⟨S128x13, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x13, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x13, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x13, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) :
    val_main_v40 (F := Ideal) x0 x1 x2 x3 x4 x5 x6 x7 x8 x9 x10 x11 x12 x13 x14 x15 x16 x17 x18
      = Cert.Lstm.GC x0 x1 x2 (val_main_v4 (F := Ideal) x3 x7 x11 x15) (val_main_v9 (F := Ideal) x5 x9 x13 x17) (val_main_v1 (F := Ideal) x4 x8 x12 x16) (val_main_v3 (F := Ideal) x6 x10 x14 x18) := by
  funext i
  obtain ⟨r, j, rfl⟩ : ∃ (r : Fin 262144) (j : Fin 128), i = ix2 r j := ⟨i 0, i 1, eq_ix2 i⟩
  exact c_at x0 x1 x2 x3 x4 x5 x6 x7 x8 x9 x10 x11 x12 x13 x14 x15 x16 x17 x18 r j

end Cert.ReferenceIdeal.RefValue
-- ==== Proof.lean ====
/-
  A pipelined LSTM-cell kernel against its plain reference, over the extended reals.

  Both programs first stack the four gates' weight matrices and bias vectors and transpose the stacked matrices.  The
  kernel then adds the two stacked biases into one row, narrows the weights to the short float format (the identity on
  extended reals), and runs 64 grid points, each on a tile of 4096 batch rows: two matrix products into a zero
  accumulator, the bias row, the four gate bands, c' = σ(f)·c + σ(i)·clip(g), h' = σ(o)·clip(c').  The reference computes
  the same cell on the whole batch with the biases added one after each projection and the logistic function spelled
  1 / (1 + exp(−z)).  The two pre-activations differ only in the order of a four-term sum of extended reals, and addition
  there is commutative and associative; everything after the pre-activation is the same function.  So both programs end
  with the specification's arrays (Proof/Spec.lean): the kernel by reading what each grid point writes back and tiling
  (Proof/KI/Value.lean, over the frame run of Proof/KI/Run.lean), the reference by reading its run one host operation at
  a time (Proof/RefIsSpec.lean).  The three frames are the runs with the results dropped; no rewrite separates the
  printed kernel from its idealization, so that claim is trivial.  The precondition is not used: no step needs finiteness.
-/
import proofs.«145202_j12979391168907_2_alg».proof.Defs
import proofs.«145202_j12979391168907_2_alg».proof.Proof.Gen.Kernel
import proofs.«145202_j12979391168907_2_alg».proof.Proof.Gen.KernelIdeal
import proofs.«145202_j12979391168907_2_alg».proof.Proof.Gen.ReferenceIdeal
import proofs.«145202_j12979391168907_2_alg».proof.Proof.Gen.Pre_finite_inputs
import proofs.«145202_j12979391168907_2_alg».proof.Proof.Gen.ReferenceIdeal.Run
import proofs.«145202_j12979391168907_2_alg».proof.Proof.Gen.ReferenceIdeal.Read
import proofs.«145202_j12979391168907_2_alg».proof.Proof.K.Run
import proofs.«145202_j12979391168907_2_alg».proof.Proof.KI.Run
import proofs.«145202_j12979391168907_2_alg».proof.Proof.KI.Value
import proofs.«145202_j12979391168907_2_alg».proof.Proof.RefIsSpec
import Idealize.ShloMosaic.Adequacy
import Idealize.ShloMosaic.Init

noncomputable section

namespace Cert.Proof

open Idealize.ShloMosaic Idealize.ShloMosaic.TcCoe Idealize.SL.Sem

/-- The printed kernel runs to the end, faults nowhere and leaves its arguments as they were. -/
theorem frame_k : Cert.frame_Kernel := fun m ρ _ => Cert.Kernel.Frame.frame m ρ

/-- So does its idealization. -/
theorem frame_ki : Cert.frame_KernelIdeal := fun m ρ _ => Cert.KernelIdeal.Frame.frame m ρ

/-- The reference's frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories that agree on the nineteen arguments the two idealized programs end with the same three results: the
    new hidden state (returned twice) and the new cell state of the specification. -/
theorem algebraic : Cert.algebraic_KernelIdeal_ReferenceIdeal := by
  intro m ρ m' ρ' _ hagree
  refine ⟨fun c => (Cert.Lstm.GH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Frame.WxT m c) (Cert.KernelIdeal.Frame.WhT m c) (Cert.KernelIdeal.Frame.BX m c) (Cert.KernelIdeal.Frame.BH m c)), fun c => (Cert.Lstm.GH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Frame.WxT m c) (Cert.KernelIdeal.Frame.WhT m c) (Cert.KernelIdeal.Frame.BX m c) (Cert.KernelIdeal.Frame.BH m c)), fun c => (Cert.Lstm.GC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Frame.WxT m c) (Cert.KernelIdeal.Frame.WhT m c) (Cert.KernelIdeal.Frame.BX m c) (Cert.KernelIdeal.Frame.BH m c)), Cert.KernelIdeal.Val.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17, a18⟩ := hagree c
  have eh : Cert.ReferenceIdeal.Value.res_main_v42 m' c = (Cert.Lstm.GH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Frame.WxT m c) (Cert.KernelIdeal.Frame.WhT m c) (Cert.KernelIdeal.Frame.BX m c) (Cert.KernelIdeal.Frame.BH m c)) := by
    rw [Cert.ReferenceIdeal.Read.val_main_v42_eq, Cert.ReferenceIdeal.RefValue.h_eq, a0, a1, a2, a3, a4, a5, a6, a7, a8, a9, a10, a11, a12, a13, a14, a15, a16, a17, a18]
    rfl
  have ec : Cert.ReferenceIdeal.Value.res_main_v40 m' c = (Cert.Lstm.GC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Frame.WxT m c) (Cert.KernelIdeal.Frame.WhT m c) (Cert.KernelIdeal.Frame.BX m c) (Cert.KernelIdeal.Frame.BH m c)) := by
    rw [Cert.ReferenceIdeal.Read.val_main_v40_eq, Cert.ReferenceIdeal.RefValue.c_eq, a0, a1, a2, a3, a4, a5, a6, a7, a8, a9, a10, a11, a12, a13, a14, a15, a16, a17, a18]
    rfl
  exact ⟨(h c).1.trans eh, (h c).2.1.trans eh, (h c).2.2.1.trans ec, (h c).2.2.2⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
